-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2048 : Shape := ⟨3, ![2, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : IVec S2x2048x2048 1) (main_arg2 : FVec F S1024x3072 .f32) (main_arg3 : FVec F S3072 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg3
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S2x2048x1024 : Shape := ⟨3, ![2, 2048, 1024]⟩
abbrev S2x2048x2048 : Shape := ⟨3, ![2, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512x64 : Shape := ⟨2, ![512, 64]⟩
abbrev S2048x64 : Shape := ⟨2, ![2048, 64]⟩
abbrev S64x2048 : Shape := ⟨2, ![64, 2048]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .i1⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S1024x3072, .bf16⟩
  | .hbm, ⟨7, _⟩ => ⟨S1024x1024, .bf16⟩
  | .hbm, ⟨8, _⟩ => ⟨S4096x1024, .f32⟩
  | .hbm, ⟨9, _⟩ => ⟨S1x3072, .f32⟩
  | .hbm, ⟨10, _⟩ => ⟨S4096x3072, .bf16⟩
  | .hbm, ⟨11, _⟩ => ⟨S2x2048x3072, .bf16⟩
  | .hbm, ⟨12, _⟩ => ⟨S2x2048x2048, .i32⟩
  | .hbm, ⟨13, _⟩ => ⟨S2x2048x1024, .bf16⟩
  | .hbm, ⟨14, _⟩ => ⟨S4096x1024, .bf16⟩
  | .hbm, ⟨15, _⟩ => ⟨S1x1024, .f32⟩
  | .hbm, ⟨16, _⟩ => ⟨S4096x1024, .f32⟩
  | .hbm, ⟨17, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x2048, .i32⟩
  | .local _ .vmem, ⟨13, _⟩ => ⟨S1x512x2048, .i32⟩
  | .local _ .vmem, ⟨14, _⟩ => ⟨S1x512x128, .bf16⟩
  | .local _ .vmem, ⟨15, _⟩ => ⟨S1x512x128, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S2x2048x1024_S4096x1024 : S2x2048x1024.ShapeCasts S4096x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S512x128_o0_0_S512x64 : S512x128.Slices ![0, 0] S512x64
  slices_S512x128_o0_64_S512x64 : S512x128.Slices ![0, 64] S512x64
  slices_S2048x128_o0_0_S2048x64 : S2048x128.Slices ![0, 0] S2048x64
  slices_S2048x128_o0_64_S2048x64 : S2048x128.Slices ![0, 64] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S2x2048x2048.size a
  hwx1_3 : ∀ i : grid1.Coords, EltTy.bits .i32 = 32 ∨ (Rect.block (s := S2x2048x2048) S1x512x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S2x2048x1024.size a
  hwx1_4 : ∀ i : grid1.Coords, EltTy.bits .bf16 = 32 ∨ (Rect.block (s := S2x2048x1024) S1x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2x2048x2048 : Shape := ⟨3, ![2, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .i1⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S2x2048x3072, .f32⟩
  | .hbm, ⟨7, _⟩ => ⟨S1x1x3072, .f32⟩
  | .hbm, ⟨8, _⟩ => ⟨S2x2048x3072, .f32⟩
  | .hbm, ⟨9, _⟩ => ⟨S2x2048x3072, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x16x64, .f32⟩
  | .hbm, ⟨16, _⟩ => ⟨S2x16x2048x64, .f32⟩
  | .hbm, ⟨17, _⟩ => ⟨S2x2048x16x64, .f32⟩
  | .hbm, ⟨18, _⟩ => ⟨S2x16x2048x64, .f32⟩
  | .hbm, ⟨19, _⟩ => ⟨S2x16x2048x2048, .f32⟩
  | .hbm, ⟨20, _⟩ => ⟨S_, .f32⟩
  | .hbm, ⟨21, _⟩ => ⟨S_, .f32⟩
  | .hbm, ⟨22, _⟩ => ⟨S2x16x2048x2048, .f32⟩
  | .hbm, ⟨23, _⟩ => ⟨S2x16x2048x2048, .f32⟩
  | .hbm, ⟨24, _⟩ => ⟨S2x1x2048x2048, .i1⟩
  | .hbm, ⟨25, _⟩ => ⟨S_, .f32⟩
  | .hbm, ⟨26, _⟩ => ⟨S2x16x2048x2048, .i1⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S_, .f32⟩
  | .hbm, ⟨32, _⟩ => ⟨S2x16x2048, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x64, .f32⟩
  | .hbm, ⟨44, _⟩ => ⟨S2x2048x16x64, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KDefs.lean ====
/-
  The data of the three kernel launches of the attention layer, stated once and used by both the run proof
  and the value proof: for each launch, a window's block of its array at a grid point, what the kernel body
  leaves in the output window's buffer as a function of the input blocks, the launch's proof data over
  arbitrary entry contents, and the contents of every buffer at each boundary between the host stretches
  and the launches (a fold from the launch memory).

  Launch 0 computes a 512-row block of x·W + b (all 3072 columns), launch 1 one 512-row query tile of
  two attention heads, launch 2 a 512-row block of a·Wfc + bfc. In launch 1 three windows read the SAME
  array (the projected q, k, v live side by side in its columns), so that array's ownership is dealt
  among the three windows in fixed fractions.
-/
import proofs.«128385_j45775761441132_2_alg».proof.Proof.Gen.Kernel.Launch
import proofs.«128385_j45775761441132_2_alg».proof.Proof.Gen.Kernel.Skeleton
import proofs.«128385_j45775761441132_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Regions
variable (V : (c : Dev nD) → (b : Ref sig .tc) → Buf (Elt F) ((c : Thread nD τ).loc b))

/-! ## Launch 0: a row block of x·W + b -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output buffer after the body: its one whole-buffer store of the product-plus-bias of the three input blocks. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- Launch 0's proof data over entry contents `V`: inputs keep their blocks, the output holds `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-! ## Launch 1: one query tile of two heads -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
abbrev r1_m : Rect S1x512x2048 := Rect.unit (s := S1x512x2048) ![0, 0, 0] S1x512x2048.size inb_S1x512x2048_S1x512x2048_0_0_0

/-- The output buffer after the body: its one whole-buffer store, the two heads' attention outputs side by side,
    from the query tile `x0`, the key columns `x1`, the value columns `x2` and the mask tile `x3`. -/
def out1_4 (x0 : Vec F S1x512x128 .bf16) (x1 : Vec F S1x2048x128 .bf16) (x2 : Vec F S1x2048x128 .bf16) (x3 : Vec F S1x512x2048 .i32) : Vec F S1x512x128 .bf16 :=
  View.canon [⟨r1_q, k1_pay1 (k1_pay5 (View.ld x3 r1_m)) (k1_pay6 (View.ld x2 r1_kv))
    (k1_pay7 (View.ld x0 r1_q) (View.ld x1 r1_kv) (View.ld x2 r1_kv) (View.ld x3 r1_m))
    (k1_pay8 (View.ld x0 r1_q) (View.ld x1 r1_kv)) (k1_pay9 (F := F))⟩]

/-- Launch 1's proof data over entry contents `V`. The three windows on the shared array hold it in the fractions
    left, right-left and right-right of the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

/-! ## Launch 2: a row block of a·Wfc + bfc -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

end Regions

/-! ## The contents of every buffer at each boundary of the program -/

variable (m : (ℓ : Loc nD τ sig) → Buf (Elt F) ℓ) (ρ : Dev nD → PrngReg)

/-- At launch. -/
abbrev W0 : Dev nD → Valuation τ sig (Elt F) := fun c b => m ((c : Dev nD), b)
/-- After the first host stretch (launch 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At launch 0's exit: its output array at what the write-backs leave, everything else as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (launch 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At launch 1's exit: only its output array changes (three of its windows share one input array, so the
    exit contents are written as an update of the one output buffer). -/
def W4 (c : Dev nD) : Valuation τ sig (Elt F) :=
  Function.update (W3 m c) (Proc.devRef .tc main_v7) ((dat1 (V3 m) c).arrAt 4 cfg1.N)
abbrev V4 : (c : Dev nD) → (b : Ref sig .tc) → Buf (Elt F) ((c : Thread nD τ).loc b) := fun c b => W4 m c b
/-- After the third host stretch (launch 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At launch 2's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last host stretch: the program's end. -/
abbrev W7 : Dev nD → Valuation τ sig (Elt F) := fun c => StableHlo.after hostOps3 (W6 m c)

/-- No launch reads a prefetched table. -/
abbrev adm : (p : Fin 3) → (pcfgs (F := F) p).Adm := fun p => (cfgs p).toPCfg_adm
/-- Every launch's proof data at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.Kernel.Hand

end
-- ==== Proof.KFold.lean ====
/-
  The contents of the buffers along the program, launch by launch: what each launch leaves in its arrays and
  that it leaves every other buffer alone, and each argument array read back through the whole fold to the
  launch memory (no host operation writes an argument and none is a launch's array).
-/
import proofs.«128385_j45775761441132_2_alg».proof.Proof.KDefs
import proofs.«128385_j45775761441132_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## What each launch leaves in the buffers -/

/-- At launch 0's exit each of its arrays holds what the write-backs leave, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and every other buffer what it held at entry. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At launch 1's exit its output array holds what the write-backs leave, -/
theorem W4_v7 (c : Dev nD) : W4 m c (Proc.devRef .tc main_v7) = (dat1 (V3 m) c).arrAt 4 cfg1.N := by
  unfold W4; exact Function.update_self _ _ _
/-- and every other buffer what it held at entry. -/
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) _ _

/-- At launch 2's exit each of its arrays holds what the write-backs leave, -/
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
/-- and every other buffer what it held at entry. -/
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched -/

/-- `main_arg0` ends as launched: no host operation writes it and it is no launch's array. -/
theorem W7_main_arg0 (c : Dev nD) : W7 m c (Proc.devRef .tc main_arg0) = m ((c : Thread nD τ).loc main_arg0) :=
  (StableHlo.after_of_writes_sub hostOps3 _ hostOps3_writes (by decide)).trans <|
  (W6_of_ne m c main_arg0 (by decide)).trans <|
  (StableHlo.after_of_writes_sub hostOps2 _ hostOps2_writes (by decide)).trans <|
  (W4_of_ne m c main_arg0 (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl

/-- `main_arg1` ends as launched: no host operation writes it and it is no launch's array. -/
theorem W7_main_arg1 (c : Dev nD) : W7 m c (Proc.devRef .tc main_arg1) = m ((c : Thread nD τ).loc main_arg1) :=
  (StableHlo.after_of_writes_sub hostOps3 _ hostOps3_writes (by decide)).trans <|
  (W6_of_ne m c main_arg1 (by decide)).trans <|
  (StableHlo.after_of_writes_sub hostOps2 _ hostOps2_writes (by decide)).trans <|
  (W4_of_ne m c main_arg1 (by decide)).trans <|
  (StableHlo.after_of_writes_sub hostOps1 _ hostOps1_writes (by decide)).trans <|
  (W2_of_ne m c main_arg1 (by decide)).trans <|
  (StableHlo.after_of_writes_sub hostOps0 _ hostOps0_writes (by decide)).trans rfl

/-- `main_arg2` ends as launched: no host operation writes it and it is no launch's array. -/
theorem W7_main_arg2 (c : Dev nD) : W7 m c (Proc.devRef .tc main_arg2) = m ((c : Thread nD τ).loc main_arg2) :=
  (StableHlo.after_of_writes_sub hostOps3 _ hostOps3_writes (by decide)).trans <|
  (W6_of_ne m c main_arg2 (by decide)).trans <|
  (StableHlo.after_of_writes_sub hostOps2 _ hostOps2_writes (by decide)).trans <|
  (W4_of_ne m c main_arg2 (by decide)).trans <|
  (StableHlo.after_of_writes_sub hostOps1 _ hostOps1_writes (by decide)).trans <|
  (W2_of_ne m c main_arg2 (by decide)).trans <|
  (StableHlo.after_of_writes_sub hostOps0 _ hostOps0_writes (by decide)).trans rfl

/-- `main_arg3` ends as launched: no host operation writes it and it is no launch's array. -/
theorem W7_main_arg3 (c : Dev nD) : W7 m c (Proc.devRef .tc main_arg3) = m ((c : Thread nD τ).loc main_arg3) :=
  (StableHlo.after_of_writes_sub hostOps3 _ hostOps3_writes (by decide)).trans <|
  (W6_of_ne m c main_arg3 (by decide)).trans <|
  (StableHlo.after_of_writes_sub hostOps2 _ hostOps2_writes (by decide)).trans <|
  (W4_of_ne m c main_arg3 (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl

/-- `main_arg4` ends as launched: no host operation writes it and it is no launch's array. -/
theorem W7_main_arg4 (c : Dev nD) : W7 m c (Proc.devRef .tc main_arg4) = m ((c : Thread nD τ).loc main_arg4) :=
  (StableHlo.after_of_writes_sub hostOps3 _ hostOps3_writes (by decide)).trans <|
  (W6_of_ne m c main_arg4 (by decide)).trans <|
  (StableHlo.after_of_writes_sub hostOps2 _ hostOps2_writes (by decide)).trans <|
  (W4_of_ne m c main_arg4 (by decide)).trans <|
  (StableHlo.after_of_writes_sub hostOps1 _ hostOps1_writes (by decide)).trans <|
  (W2_of_ne m c main_arg4 (by decide)).trans <|
  (StableHlo.after_of_writes_sub hostOps0 _ hostOps0_writes (by decide)).trans rfl

/-- `main_arg5` ends as launched: no host operation writes it and it is no launch's array. -/
theorem W7_main_arg5 (c : Dev nD) : W7 m c (Proc.devRef .tc main_arg5) = m ((c : Thread nD τ).loc main_arg5) :=
  (StableHlo.after_of_writes_sub hostOps3 _ hostOps3_writes (by decide)).trans <|
  (W6_of_ne m c main_arg5 (by decide)).trans <|
  (StableHlo.after_of_writes_sub hostOps2 _ hostOps2_writes (by decide)).trans <|
  (W4_of_ne m c main_arg5 (by decide)).trans <|
  (StableHlo.after_of_writes_sub hostOps1 _ hostOps1_writes (by decide)).trans <|
  (W2_of_ne m c main_arg5 (by decide)).trans <|
  (StableHlo.after_of_writes_sub hostOps0 _ hostOps0_writes (by decide)).trans rfl

end Cert.Kernel.Hand

end
-- ==== Proof.KBody0.lean ====
/-
  The body obligation of launch 0 (a 512-row block of x·W + b): at every grid point, from the three input
  windows' buffers at their blocks and the output window's buffer at anything, the kernel body leaves the inputs
  as they were and the output buffer at the truncated product-plus-bias of the three blocks. Stated for any
  float instance.
-/
import proofs.«128385_j45775761441132_2_alg».proof.Proof.KDefs

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not: where the pipeline
    does not fetch it the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not: where the pipeline
    does not fetch it the block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not: where the pipeline
    does not fetch it the block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

/-- The body's single store is of the whole output buffer, so every index of the buffer lies in it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole buffers, the inputs' at contents `x0 x1 x2` and the output's at anything, runs to the
    continuation holding the inputs as they were and the output at `out0_3 x0 x1 x2`: three loads, a load of the
    output that is not used, and one store of the whole output buffer. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data, projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The body obligation of launch 1 (one 512-row query tile of two attention heads): at every grid point, from
  the four input windows' buffers at their blocks (query tile, key columns, value columns, mask tile) and the
  output window's buffer at anything, the kernel body leaves the inputs as they were and the output buffer at
  the two heads' attention outputs side by side. Stated for any float instance.
-/
import proofs.«128385_j45775761441132_2_alg».proof.Proof.KDefs

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not: where the pipeline
    does not fetch it the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not: where the pipeline
    does not fetch it the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not: where the pipeline
    does not fetch it the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not: where the pipeline
    does not fetch it the block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The body's single store is of the whole output buffer, so every index of the buffer lies in it. -/
theorem cover1_4 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

/-! ## The body's triple -/

set_option maxHeartbeats 1000000 in
/-- The kernel body on whole buffers, the inputs' at contents `x0 x1 x2 x3` and the output's at anything, runs to the
    continuation holding the inputs as they were and the output at `out1_4 x0 x1 x2 x3`: four loads (in the body's
    first part), a load of the output that is not used, and one store of the whole output buffer. -/
theorem sound_kernel1 (c : Dev nD) (E : Set ℕ) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .i32) (harg6 : arg6.IsWhole) (arg7 : Memref sig .tc .vmem S1x512x128 .bf16) (harg7 : arg7.IsWhole)
    (x0 : Vec F S1x512x128 .bf16) (x1 : Vec F S1x2048x128 .bf16) (x2 : Vec F S1x2048x128 .bf16) (x3 : Vec F S1x512x2048 .i32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_4 x0 x1 x2 x3)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data, projected -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  The body obligation of launch 2 (a 512-row block of a·Wfc + bfc): at every grid point, from the three input
  windows' buffers at their blocks and the output window's buffer at anything, the kernel body leaves the inputs
  as they were and the output buffer at the product-plus-bias of the three blocks. Stated for any float instance.
-/
import proofs.«128385_j45775761441132_2_alg».proof.Proof.KDefs

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not: where the pipeline
    does not fetch it the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current buffer holds its block at every point, fetched there or not: where the pipeline
    does not fetch it the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current buffer holds its block at every point, fetched there or not: where the pipeline
    does not fetch it the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output buffer -/

/-- The body's single store is of the whole output buffer, so every index of the buffer lies in it. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole buffers, the inputs' at contents `x0 x1 x2` and the output's at anything, runs to the
    continuation holding the inputs as they were and the output at `out2_3 x0 x1 x2`: three loads, a load of the
    output that is not used, and one store of the whole output buffer. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data, projected -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the kernel's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole program, with its result named. The program is seven stretches in order: host operations,
  launch 0, host operations, launch 1, host operations, launch 2, host operations. Between two stretches the
  TensorCore holds every unscoped buffer whole at the contents the fold `W0 … W7` of the launch memory names,
  its generator register at some state, and owes nothing. A host stretch moves the contents by its operations;
  a launch takes its windows' arrays out of the held buffers, runs its pipeline from the body obligation, and
  puts the arrays back at what the write-backs leave.

  Launches 0 and 2 have one array per window. In launch 1 three input windows read one array: its points-to is
  split along the share into a left half, a right-left quarter and a right-right quarter at entry, one part per
  window, and the three parts are joined again at exit (an input array is never written, so all three still
  hold the entry contents).
-/
import proofs.«128385_j45775761441132_2_alg».proof.Proof.KFold
import proofs.«128385_j45775761441132_2_alg».proof.Proof.KBody0
import proofs.«128385_j45775761441132_2_alg».proof.Proof.KBody1
import proofs.«128385_j45775761441132_2_alg».proof.Proof.KBody2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state between stretches -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents `W7`, the generator
    register at some state. -/
abbrev Tₙ (c : Dev nD) : sProp 𝕄 := iprop(StableHlo.held (c : Thread nD τ) (Pipeline.ucRefs τ sig) (W7 m c) ∗ ∃ r, prngReg c r)

/-! ## The launches as segments -/

set_option backward.isDefEq.respectTransparency.types false in
/-- LAUNCH 0 over the thread state: entered from every unscoped buffer at `W1`, left at `W2`. Its arrays are
    taken out of the held buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Launch 1: three windows on one array -/

/-- Launch 1's arrays, window by window: the shared array at the left half, the right-left quarter and the
    right-right quarter of the whole share, the mask array and the output array at the whole share. -/
theorem arrays1_eq (c : Dev nD) (G : (w : Fin cfg1.W) → Buf (Elt F) ((cfg1.win w).arr.view.loc (c.tc : Thread nD τ))) :
    ((pdats m 1 c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v6) ↦{fullShare} G 3)
          ∗ (((c : Thread nD τ).loc main_v7) ↦{fullShare} G 4)) := by
  unfold Pipeline.Dat.arrays
  refine (bigSep_congr (Ψ := fun w : Fin 5 => (((c : Thread nD τ).loc (Pipeline.arrRef spec1 w)) ↦{(pdats m 1 c).share w} G w : sProp 𝕄))
    fun w _ => congrArg (fun S => (((c : Thread nD τ).loc (Pipeline.arrRef spec1 w)) ↦[S]{(pdats m 1 c).share w} G w : sProp 𝕄))
      (arr_whole1 w).set_eq_univ).trans ?_
  rw [bigSep_W1]; rfl

/-- The three buffers behind launch 1's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6) ∗ (((c : Thread nD τ).loc main_v7) ↦{fullShare} V main_v7)) := by
  unfold Pipeline.arrBufs
  exact bigSep_eq_bigSepL_of_eq [main_v5, main_v6, main_v7] (by decide) (by decide) _

/-- One buffer whole is its left half, right-left quarter and right-right quarter. -/
theorem split3 (ℓ : Loc nD τ sig) (f : Buf (Elt F) ℓ) :
    (ℓ ↦{fullShare} f : sProp 𝕄) ⊢ iprop((ℓ ↦{fullShare.left} f) ∗ (ℓ ↦{fullShare.right.left} f) ∗ (ℓ ↦{fullShare.right.right} f)) := by
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl] <;> iassumption

/-- And back. -/
theorem join3 (ℓ : Loc nD τ sig) (f : Buf (Elt F) ℓ) :
    iprop((ℓ ↦{fullShare.left} f) ∗ (ℓ ↦{fullShare.right.left} f) ∗ (ℓ ↦{fullShare.right.right} f)) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- The three buffers whole, dealt to the five windows: the shared one in three parts. -/
theorem deal1 (c : Dev nD) {g5 f0 f1 f2 : Buf (Elt F) ((c : Thread nD τ).loc main_v5)} {g6 f3 : Buf (Elt F) ((c : Thread nD τ).loc main_v6)}
    {g7 f4 : Buf (Elt F) ((c : Thread nD τ).loc main_v7)} (h0 : g5 = f0) (h1 : g5 = f1) (h2 : g5 = f2) (h3 : g6 = f3) (h4 : g7 = f4) :
    iprop((((c : Thread nD τ).loc main_v5) ↦{fullShare} g5) ∗ (((c : Thread nD τ).loc main_v6) ↦{fullShare} g6) ∗ (((c : Thread nD τ).loc main_v7) ↦{fullShare} g7))
      ⊢ (iprop((((c : Thread nD τ).loc main_v5) ↦{fullShare.left} f0) ∗ (((c : Thread nD τ).loc main_v5) ↦{fullShare.right.left} f1)
          ∗ (((c : Thread nD τ).loc main_v5) ↦{fullShare.right.right} f2) ∗ (((c : Thread nD τ).loc main_v6) ↦{fullShare} f3)
          ∗ (((c : Thread nD τ).loc main_v7) ↦{fullShare} f4)) : sProp 𝕄) := by
  subst h0 h1 h2 h3 h4
  iintro ⟨H5, H6, H7⟩
  ihave H5' := split3 _ _ $$ H5
  icases H5' with ⟨Hl, Hrl, Hrr⟩
  isplitl [Hl]; · iexact Hl
  isplitl [Hrl]; · iexact Hrl
  isplitl [Hrr]; · iexact Hrr
  isplitl [H6]; · iexact H6
  iexact H7

/-- The five windows' holdings, gathered into the three buffers whole: the shared one's three parts, all at one
    contents, joined. -/
theorem gather1 (c : Dev nD) {g5 f0 f1 f2 : Buf (Elt F) ((c : Thread nD τ).loc main_v5)} {g6 f3 : Buf (Elt F) ((c : Thread nD τ).loc main_v6)}
    {g7 f4 : Buf (Elt F) ((c : Thread nD τ).loc main_v7)} (h0 : f0 = g5) (h1 : f1 = g5) (h2 : f2 = g5) (h3 : f3 = g6) (h4 : f4 = g7) :
    iprop((((c : Thread nD τ).loc main_v5) ↦{fullShare.left} f0) ∗ (((c : Thread nD τ).loc main_v5) ↦{fullShare.right.left} f1)
          ∗ (((c : Thread nD τ).loc main_v5) ↦{fullShare.right.right} f2) ∗ (((c : Thread nD τ).loc main_v6) ↦{fullShare} f3)
          ∗ (((c : Thread nD τ).loc main_v7) ↦{fullShare} f4))
      ⊢ (iprop((((c : Thread nD τ).loc main_v5) ↦{fullShare} g5) ∗ (((c : Thread nD τ).loc main_v6) ↦{fullShare} g6) ∗ (((c : Thread nD τ).loc main_v7) ↦{fullShare} g7)) : sProp 𝕄) := by
  subst h0 h1 h2 h3 h4
  iintro ⟨Hl, Hrl, Hrr, H6, H7⟩
  isplitl [Hl Hrl Hrr]
  · iapply join3
    isplitl [Hl]; · iexact Hl
    isplitl [Hrl] <;> iassumption
  isplitl [H6] <;> iassumption

set_option backward.isDefEq.respectTransparency.types false in
/-- ENTRY of launch 1, the arrays' part: the held buffers are the three buffers behind the arrays and the rest;
    the shared one is dealt among its three windows. -/
theorem entry1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c),
    Pipeline.unscopedBufs_split₀ cfgs 1 winFacts₀1.arr_unscoped c (V3 m c)]
  refine sep_mono ?_ .rfl
  refine (Entails.of_eq (arrBufs1_eq c (V3 m c))).trans (BI.Entails.trans ?_ (Entails.of_eq (arrays1_eq m c _).symm))
  exact deal1 c rfl rfl rfl rfl rfl

set_option backward.isDefEq.respectTransparency.types false in
/-- EXIT of launch 1, the arrays' part: an input array is never written, so the three parts of the shared array
    all hold its entry contents and join to the whole; the output array is at what the write-backs leave, which
    is what `W4` says; every other buffer is as at entry. -/
theorem exit1 (c : Dev nD) :
    iprop((pdats m 1 c).arrays ((pdats m 1 c).arrAt · cfg1.N)
          ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have hrest : (Pipeline.unscopedRest (Ix := Unit) (Name := ℕ) (U := UR sig nD τ) (Lvl := ℕ) spec1 c (V4 m c) : sProp 𝕄)
      = Pipeline.unscopedRest spec1 c (V3 m c) := by
    unfold Pipeline.unscopedRest
    exact bigSep_congr fun b hb => by
      rw [show V4 m c b = V3 m c b from W4_of_ne m c b fun e =>
        (Finset.mem_sdiff.mp hb).2 (e ▸ (by decide : main_v7 ∈ Finset.univ.image (Pipeline.arrRef spec1)))]
  have e0 : (pdats m 1 c).arrAt 0 cfg1.N = V3 m c main_v5 := (dat1 (V3 m) c).arrAt_in 0 rfl _
  have e1 : (pdats m 1 c).arrAt 1 cfg1.N = V3 m c main_v5 := (dat1 (V3 m) c).arrAt_in 1 rfl _
  have e2 : (pdats m 1 c).arrAt 2 cfg1.N = V3 m c main_v5 := (dat1 (V3 m) c).arrAt_in 2 rfl _
  have e3 : (pdats m 1 c).arrAt 3 cfg1.N = V3 m c main_v6 := (dat1 (V3 m) c).arrAt_in 3 rfl _
  have h5 : V4 m c main_v5 = V3 m c main_v5 := W4_of_ne m c main_v5 (by decide)
  have h6 : V4 m c main_v6 = V3 m c main_v6 := W4_of_ne m c main_v6 (by decide)
  have h7 : V4 m c main_v7 = (pdats m 1 c).arrAt 4 cfg1.N := W4_v7 m c
  rw [← Pipeline.unscopedBufs_held (Ix := Unit) (Name := ℕ) (U := UR sig nD τ) (Lvl := ℕ) c (W4 m c),
    Pipeline.unscopedBufs_split₀ cfgs 1 winFacts₀1.arr_unscoped c (V4 m c)]
  refine BI.sep_mono ?_ (Entails.of_eq hrest.symm)
  refine (Entails.of_eq (arrays1_eq m c _)).trans (BI.Entails.trans ?_ (Entails.of_eq (arrBufs1_eq c (V4 m c)).symm))
  exact gather1 c (e0.trans h5.symm) (e1.trans h5.symm) (e2.trans h5.symm) (e3.trans h6.symm) h7.symm

set_option backward.isDefEq.respectTransparency.types false in
/-- LAUNCH 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at `W5`, left at `W6`. Its arrays are
    taken out of the held buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order: a host segment per stretch from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program IS the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCore
    terminates, nothing faulting, and every final state holds the result array at the last contents of the fold
    and every argument array as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = W7 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v11 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c),
       (h c _ (mem_uc main_arg5 (by decide))).trans (W7_main_arg5 m c)⟩)

end Cert.Kernel.Hand

end
-- ==== Proof.KIDefs.lean ====
/-
  The data of the three kernel launches of the attention layer, stated once and used by both the run proof
  and the value proof: for each launch, a window's block of its array at a grid point, what the kernel body
  leaves in the output window's buffer as a function of the input blocks, the launch's proof data over
  arbitrary entry contents, and the contents of every buffer at each boundary between the host stretches
  and the launches (a fold from the launch memory).

  Launch 0 computes a 512-row block of x·W + b (all 3072 columns), launch 1 one 512-row query tile of
  two attention heads, launch 2 a 512-row block of a·Wfc + bfc. In launch 1 three windows read the SAME
  array (the projected q, k, v live side by side in its columns), so that array's ownership is dealt
  among the three windows in fixed fractions.
-/
import proofs.«128385_j45775761441132_2_alg».proof.Proof.Gen.KernelIdeal.Launch
import proofs.«128385_j45775761441132_2_alg».proof.Proof.Gen.KernelIdeal.Skeleton
import proofs.«128385_j45775761441132_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Regions
variable (V : (c : Dev nD) → (b : Ref sig .tc) → Buf (Elt F) ((c : Thread nD τ).loc b))

/-! ## Launch 0: a row block of x·W + b -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output buffer after the body: its one whole-buffer store of the product-plus-bias of the three input blocks. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- Launch 0's proof data over entry contents `V`: inputs keep their blocks, the output holds `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-! ## Launch 1: one query tile of two heads -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
abbrev r1_m : Rect S1x512x2048 := Rect.unit (s := S1x512x2048) ![0, 0, 0] S1x512x2048.size inb_S1x512x2048_S1x512x2048_0_0_0

/-- The output buffer after the body: its one whole-buffer store, the two heads' attention outputs side by side,
    from the query tile `x0`, the key columns `x1`, the value columns `x2` and the mask tile `x3`. -/
def out1_4 (x0 : Vec F S1x512x128 .bf16) (x1 : Vec F S1x2048x128 .bf16) (x2 : Vec F S1x2048x128 .bf16) (x3 : Vec F S1x512x2048 .i32) : Vec F S1x512x128 .bf16 :=
  View.canon [⟨r1_q, k1_pay1 (k1_pay5 (View.ld x3 r1_m)) (k1_pay6 (View.ld x2 r1_kv))
    (k1_pay7 (View.ld x0 r1_q) (View.ld x1 r1_kv) (View.ld x2 r1_kv) (View.ld x3 r1_m))
    (k1_pay8 (View.ld x0 r1_q) (View.ld x1 r1_kv)) (k1_pay9 (F := F))⟩]

/-- Launch 1's proof data over entry contents `V`. The three windows on the shared array hold it in the fractions
    left, right-left and right-right of the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

/-! ## Launch 2: a row block of a·Wfc + bfc -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

end Regions

/-! ## The contents of every buffer at each boundary of the program -/

variable (m : (ℓ : Loc nD τ sig) → Buf (Elt F) ℓ) (ρ : Dev nD → PrngReg)

/-- At launch. -/
abbrev W0 : Dev nD → Valuation τ sig (Elt F) := fun c b => m ((c : Dev nD), b)
/-- After the first host stretch (launch 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At launch 0's exit: its output array at what the write-backs leave, everything else as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (launch 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At launch 1's exit: only its output array changes (three of its windows share one input array, so the
    exit contents are written as an update of the one output buffer). -/
def W4 (c : Dev nD) : Valuation τ sig (Elt F) :=
  Function.update (W3 m c) (Proc.devRef .tc main_v7) ((dat1 (V3 m) c).arrAt 4 cfg1.N)
abbrev V4 : (c : Dev nD) → (b : Ref sig .tc) → Buf (Elt F) ((c : Thread nD τ).loc b) := fun c b => W4 m c b
/-- After the third host stretch (launch 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At launch 2's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last host stretch: the program's end. -/
abbrev W7 : Dev nD → Valuation τ sig (Elt F) := fun c => StableHlo.after hostOps3 (W6 m c)

/-- No launch reads a prefetched table. -/
abbrev adm : (p : Fin 3) → (pcfgs (F := F) p).Adm := fun p => (cfgs p).toPCfg_adm
/-- Every launch's proof data at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Hand

end
-- ==== Proof.KIFold.lean ====
/-
  The contents of the buffers along the program, launch by launch: what each launch leaves in its arrays and
  that it leaves every other buffer alone, and each argument array read back through the whole fold to the
  launch memory (no host operation writes an argument and none is a launch's array).
-/
import proofs.«128385_j45775761441132_2_alg».proof.Proof.KIDefs
import proofs.«128385_j45775761441132_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## What each launch leaves in the buffers -/

/-- At launch 0's exit each of its arrays holds what the write-backs leave, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and every other buffer what it held at entry. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At launch 1's exit its output array holds what the write-backs leave, -/
theorem W4_v7 (c : Dev nD) : W4 m c (Proc.devRef .tc main_v7) = (dat1 (V3 m) c).arrAt 4 cfg1.N := by
  unfold W4; exact Function.update_self _ _ _
/-- and every other buffer what it held at entry. -/
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) _ _

/-- At launch 2's exit each of its arrays holds what the write-backs leave, -/
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
/-- and every other buffer what it held at entry. -/
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched -/

/-- `main_arg0` ends as launched: no host operation writes it and it is no launch's array. -/
theorem W7_main_arg0 (c : Dev nD) : W7 m c (Proc.devRef .tc main_arg0) = m ((c : Thread nD τ).loc main_arg0) :=
  (StableHlo.after_of_writes_sub hostOps3 _ hostOps3_writes (by decide)).trans <|
  (W6_of_ne m c main_arg0 (by decide)).trans <|
  (StableHlo.after_of_writes_sub hostOps2 _ hostOps2_writes (by decide)).trans <|
  (W4_of_ne m c main_arg0 (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl

/-- `main_arg1` ends as launched: no host operation writes it and it is no launch's array. -/
theorem W7_main_arg1 (c : Dev nD) : W7 m c (Proc.devRef .tc main_arg1) = m ((c : Thread nD τ).loc main_arg1) :=
  (StableHlo.after_of_writes_sub hostOps3 _ hostOps3_writes (by decide)).trans <|
  (W6_of_ne m c main_arg1 (by decide)).trans <|
  (StableHlo.after_of_writes_sub hostOps2 _ hostOps2_writes (by decide)).trans <|
  (W4_of_ne m c main_arg1 (by decide)).trans <|
  (StableHlo.after_of_writes_sub hostOps1 _ hostOps1_writes (by decide)).trans <|
  (W2_of_ne m c main_arg1 (by decide)).trans <|
  (StableHlo.after_of_writes_sub hostOps0 _ hostOps0_writes (by decide)).trans rfl

/-- `main_arg2` ends as launched: no host operation writes it and it is no launch's array. -/
theorem W7_main_arg2 (c : Dev nD) : W7 m c (Proc.devRef .tc main_arg2) = m ((c : Thread nD τ).loc main_arg2) :=
  (StableHlo.after_of_writes_sub hostOps3 _ hostOps3_writes (by decide)).trans <|
  (W6_of_ne m c main_arg2 (by decide)).trans <|
  (StableHlo.after_of_writes_sub hostOps2 _ hostOps2_writes (by decide)).trans <|
  (W4_of_ne m c main_arg2 (by decide)).trans <|
  (StableHlo.after_of_writes_sub hostOps1 _ hostOps1_writes (by decide)).trans <|
  (W2_of_ne m c main_arg2 (by decide)).trans <|
  (StableHlo.after_of_writes_sub hostOps0 _ hostOps0_writes (by decide)).trans rfl

/-- `main_arg3` ends as launched: no host operation writes it and it is no launch's array. -/
theorem W7_main_arg3 (c : Dev nD) : W7 m c (Proc.devRef .tc main_arg3) = m ((c : Thread nD τ).loc main_arg3) :=
  (StableHlo.after_of_writes_sub hostOps3 _ hostOps3_writes (by decide)).trans <|
  (W6_of_ne m c main_arg3 (by decide)).trans <|
  (StableHlo.after_of_writes_sub hostOps2 _ hostOps2_writes (by decide)).trans <|
  (W4_of_ne m c main_arg3 (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl

/-- `main_arg4` ends as launched: no host operation writes it and it is no launch's array. -/
theorem W7_main_arg4 (c : Dev nD) : W7 m c (Proc.devRef .tc main_arg4) = m ((c : Thread nD τ).loc main_arg4) :=
  (StableHlo.after_of_writes_sub hostOps3 _ hostOps3_writes (by decide)).trans <|
  (W6_of_ne m c main_arg4 (by decide)).trans <|
  (StableHlo.after_of_writes_sub hostOps2 _ hostOps2_writes (by decide)).trans <|
  (W4_of_ne m c main_arg4 (by decide)).trans <|
  (StableHlo.after_of_writes_sub hostOps1 _ hostOps1_writes (by decide)).trans <|
  (W2_of_ne m c main_arg4 (by decide)).trans <|
  (StableHlo.after_of_writes_sub hostOps0 _ hostOps0_writes (by decide)).trans rfl

/-- `main_arg5` ends as launched: no host operation writes it and it is no launch's array. -/
theorem W7_main_arg5 (c : Dev nD) : W7 m c (Proc.devRef .tc main_arg5) = m ((c : Thread nD τ).loc main_arg5) :=
  (StableHlo.after_of_writes_sub hostOps3 _ hostOps3_writes (by decide)).trans <|
  (W6_of_ne m c main_arg5 (by decide)).trans <|
  (StableHlo.after_of_writes_sub hostOps2 _ hostOps2_writes (by decide)).trans <|
  (W4_of_ne m c main_arg5 (by decide)).trans <|
  (StableHlo.after_of_writes_sub hostOps1 _ hostOps1_writes (by decide)).trans <|
  (W2_of_ne m c main_arg5 (by decide)).trans <|
  (StableHlo.after_of_writes_sub hostOps0 _ hostOps0_writes (by decide)).trans rfl

end Cert.KernelIdeal.Hand

end
-- ==== Proof.KIBody0.lean ====
/-
  The body obligation of launch 0 (a 512-row block of x·W + b): at every grid point, from the three input
  windows' buffers at their blocks and the output window's buffer at anything, the kernel body leaves the inputs
  as they were and the output buffer at the truncated product-plus-bias of the three blocks. Stated for any
  float instance.
-/
import proofs.«128385_j45775761441132_2_alg».proof.Proof.KIDefs

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not: where the pipeline
    does not fetch it the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not: where the pipeline
    does not fetch it the block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not: where the pipeline
    does not fetch it the block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

/-- The body's single store is of the whole output buffer, so every index of the buffer lies in it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole buffers, the inputs' at contents `x0 x1 x2` and the output's at anything, runs to the
    continuation holding the inputs as they were and the output at `out0_3 x0 x1 x2`: three loads, a load of the
    output that is not used, and one store of the whole output buffer. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data, projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The body obligation of launch 1 (one 512-row query tile of two attention heads): at every grid point, from
  the four input windows' buffers at their blocks (query tile, key columns, value columns, mask tile) and the
  output window's buffer at anything, the kernel body leaves the inputs as they were and the output buffer at
  the two heads' attention outputs side by side. Stated for any float instance.
-/
import proofs.«128385_j45775761441132_2_alg».proof.Proof.KIDefs

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not: where the pipeline
    does not fetch it the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not: where the pipeline
    does not fetch it the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not: where the pipeline
    does not fetch it the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not: where the pipeline
    does not fetch it the block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The body's single store is of the whole output buffer, so every index of the buffer lies in it. -/
theorem cover1_4 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

/-! ## The body's triple -/

set_option maxHeartbeats 1000000 in
/-- The kernel body on whole buffers, the inputs' at contents `x0 x1 x2 x3` and the output's at anything, runs to the
    continuation holding the inputs as they were and the output at `out1_4 x0 x1 x2 x3`: four loads (in the body's
    first part), a load of the output that is not used, and one store of the whole output buffer. -/
theorem sound_kernel1 (c : Dev nD) (E : Set ℕ) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .i32) (harg6 : arg6.IsWhole) (arg7 : Memref sig .tc .vmem S1x512x128 .bf16) (harg7 : arg7.IsWhole)
    (x0 : Vec F S1x512x128 .bf16) (x1 : Vec F S1x2048x128 .bf16) (x2 : Vec F S1x2048x128 .bf16) (x3 : Vec F S1x512x2048 .i32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_4 x0 x1 x2 x3)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data, projected -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/-
  The body obligation of launch 2 (a 512-row block of a·Wfc + bfc): at every grid point, from the three input
  windows' buffers at their blocks and the output window's buffer at anything, the kernel body leaves the inputs
  as they were and the output buffer at the product-plus-bias of the three blocks. Stated for any float instance.
-/
import proofs.«128385_j45775761441132_2_alg».proof.Proof.KIDefs

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not: where the pipeline
    does not fetch it the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current buffer holds its block at every point, fetched there or not: where the pipeline
    does not fetch it the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current buffer holds its block at every point, fetched there or not: where the pipeline
    does not fetch it the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output buffer -/

/-- The body's single store is of the whole output buffer, so every index of the buffer lies in it. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole buffers, the inputs' at contents `x0 x1 x2` and the output's at anything, runs to the
    continuation holding the inputs as they were and the output at `out2_3 x0 x1 x2`: three loads, a load of the
    output that is not used, and one store of the whole output buffer. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data, projected -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the kernel's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The run of the whole program, with its result named. The program is seven stretches in order: host operations,
  launch 0, host operations, launch 1, host operations, launch 2, host operations. Between two stretches the
  TensorCore holds every unscoped buffer whole at the contents the fold `W0 … W7` of the launch memory names,
  its generator register at some state, and owes nothing. A host stretch moves the contents by its operations;
  a launch takes its windows' arrays out of the held buffers, runs its pipeline from the body obligation, and
  puts the arrays back at what the write-backs leave.

  Launches 0 and 2 have one array per window. In launch 1 three input windows read one array: its points-to is
  split along the share into a left half, a right-left quarter and a right-right quarter at entry, one part per
  window, and the three parts are joined again at exit (an input array is never written, so all three still
  hold the entry contents).
-/
import proofs.«128385_j45775761441132_2_alg».proof.Proof.KIFold
import proofs.«128385_j45775761441132_2_alg».proof.Proof.KIBody0
import proofs.«128385_j45775761441132_2_alg».proof.Proof.KIBody1
import proofs.«128385_j45775761441132_2_alg».proof.Proof.KIBody2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state between stretches -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents `W7`, the generator
    register at some state. -/
abbrev Tₙ (c : Dev nD) : sProp 𝕄 := iprop(StableHlo.held (c : Thread nD τ) (Pipeline.ucRefs τ sig) (W7 m c) ∗ ∃ r, prngReg c r)

/-! ## The launches as segments -/

set_option backward.isDefEq.respectTransparency.types false in
/-- LAUNCH 0 over the thread state: entered from every unscoped buffer at `W1`, left at `W2`. Its arrays are
    taken out of the held buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Launch 1: three windows on one array -/

/-- Launch 1's arrays, window by window: the shared array at the left half, the right-left quarter and the
    right-right quarter of the whole share, the mask array and the output array at the whole share. -/
theorem arrays1_eq (c : Dev nD) (G : (w : Fin cfg1.W) → Buf (Elt F) ((cfg1.win w).arr.view.loc (c.tc : Thread nD τ))) :
    ((pdats m 1 c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v6) ↦{fullShare} G 3)
          ∗ (((c : Thread nD τ).loc main_v7) ↦{fullShare} G 4)) := by
  unfold Pipeline.Dat.arrays
  refine (bigSep_congr (Ψ := fun w : Fin 5 => (((c : Thread nD τ).loc (Pipeline.arrRef spec1 w)) ↦{(pdats m 1 c).share w} G w : sProp 𝕄))
    fun w _ => congrArg (fun S => (((c : Thread nD τ).loc (Pipeline.arrRef spec1 w)) ↦[S]{(pdats m 1 c).share w} G w : sProp 𝕄))
      (arr_whole1 w).set_eq_univ).trans ?_
  rw [bigSep_W1]; rfl

/-- The three buffers behind launch 1's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6) ∗ (((c : Thread nD τ).loc main_v7) ↦{fullShare} V main_v7)) := by
  unfold Pipeline.arrBufs
  exact bigSep_eq_bigSepL_of_eq [main_v5, main_v6, main_v7] (by decide) (by decide) _

/-- One buffer whole is its left half, right-left quarter and right-right quarter. -/
theorem split3 (ℓ : Loc nD τ sig) (f : Buf (Elt F) ℓ) :
    (ℓ ↦{fullShare} f : sProp 𝕄) ⊢ iprop((ℓ ↦{fullShare.left} f) ∗ (ℓ ↦{fullShare.right.left} f) ∗ (ℓ ↦{fullShare.right.right} f)) := by
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl] <;> iassumption

/-- And back. -/
theorem join3 (ℓ : Loc nD τ sig) (f : Buf (Elt F) ℓ) :
    iprop((ℓ ↦{fullShare.left} f) ∗ (ℓ ↦{fullShare.right.left} f) ∗ (ℓ ↦{fullShare.right.right} f)) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- The three buffers whole, dealt to the five windows: the shared one in three parts. -/
theorem deal1 (c : Dev nD) {g5 f0 f1 f2 : Buf (Elt F) ((c : Thread nD τ).loc main_v5)} {g6 f3 : Buf (Elt F) ((c : Thread nD τ).loc main_v6)}
    {g7 f4 : Buf (Elt F) ((c : Thread nD τ).loc main_v7)} (h0 : g5 = f0) (h1 : g5 = f1) (h2 : g5 = f2) (h3 : g6 = f3) (h4 : g7 = f4) :
    iprop((((c : Thread nD τ).loc main_v5) ↦{fullShare} g5) ∗ (((c : Thread nD τ).loc main_v6) ↦{fullShare} g6) ∗ (((c : Thread nD τ).loc main_v7) ↦{fullShare} g7))
      ⊢ (iprop((((c : Thread nD τ).loc main_v5) ↦{fullShare.left} f0) ∗ (((c : Thread nD τ).loc main_v5) ↦{fullShare.right.left} f1)
          ∗ (((c : Thread nD τ).loc main_v5) ↦{fullShare.right.right} f2) ∗ (((c : Thread nD τ).loc main_v6) ↦{fullShare} f3)
          ∗ (((c : Thread nD τ).loc main_v7) ↦{fullShare} f4)) : sProp 𝕄) := by
  subst h0 h1 h2 h3 h4
  iintro ⟨H5, H6, H7⟩
  ihave H5' := split3 _ _ $$ H5
  icases H5' with ⟨Hl, Hrl, Hrr⟩
  isplitl [Hl]; · iexact Hl
  isplitl [Hrl]; · iexact Hrl
  isplitl [Hrr]; · iexact Hrr
  isplitl [H6]; · iexact H6
  iexact H7

/-- The five windows' holdings, gathered into the three buffers whole: the shared one's three parts, all at one
    contents, joined. -/
theorem gather1 (c : Dev nD) {g5 f0 f1 f2 : Buf (Elt F) ((c : Thread nD τ).loc main_v5)} {g6 f3 : Buf (Elt F) ((c : Thread nD τ).loc main_v6)}
    {g7 f4 : Buf (Elt F) ((c : Thread nD τ).loc main_v7)} (h0 : f0 = g5) (h1 : f1 = g5) (h2 : f2 = g5) (h3 : f3 = g6) (h4 : f4 = g7) :
    iprop((((c : Thread nD τ).loc main_v5) ↦{fullShare.left} f0) ∗ (((c : Thread nD τ).loc main_v5) ↦{fullShare.right.left} f1)
          ∗ (((c : Thread nD τ).loc main_v5) ↦{fullShare.right.right} f2) ∗ (((c : Thread nD τ).loc main_v6) ↦{fullShare} f3)
          ∗ (((c : Thread nD τ).loc main_v7) ↦{fullShare} f4))
      ⊢ (iprop((((c : Thread nD τ).loc main_v5) ↦{fullShare} g5) ∗ (((c : Thread nD τ).loc main_v6) ↦{fullShare} g6) ∗ (((c : Thread nD τ).loc main_v7) ↦{fullShare} g7)) : sProp 𝕄) := by
  subst h0 h1 h2 h3 h4
  iintro ⟨Hl, Hrl, Hrr, H6, H7⟩
  isplitl [Hl Hrl Hrr]
  · iapply join3
    isplitl [Hl]; · iexact Hl
    isplitl [Hrl] <;> iassumption
  isplitl [H6] <;> iassumption

set_option backward.isDefEq.respectTransparency.types false in
/-- ENTRY of launch 1, the arrays' part: the held buffers are the three buffers behind the arrays and the rest;
    the shared one is dealt among its three windows. -/
theorem entry1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c),
    Pipeline.unscopedBufs_split₀ cfgs 1 winFacts₀1.arr_unscoped c (V3 m c)]
  refine sep_mono ?_ .rfl
  refine (Entails.of_eq (arrBufs1_eq c (V3 m c))).trans (BI.Entails.trans ?_ (Entails.of_eq (arrays1_eq m c _).symm))
  exact deal1 c rfl rfl rfl rfl rfl

set_option backward.isDefEq.respectTransparency.types false in
/-- EXIT of launch 1, the arrays' part: an input array is never written, so the three parts of the shared array
    all hold its entry contents and join to the whole; the output array is at what the write-backs leave, which
    is what `W4` says; every other buffer is as at entry. -/
theorem exit1 (c : Dev nD) :
    iprop((pdats m 1 c).arrays ((pdats m 1 c).arrAt · cfg1.N)
          ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have hrest : (Pipeline.unscopedRest (Ix := Unit) (Name := ℕ) (U := UR sig nD τ) (Lvl := ℕ) spec1 c (V4 m c) : sProp 𝕄)
      = Pipeline.unscopedRest spec1 c (V3 m c) := by
    unfold Pipeline.unscopedRest
    exact bigSep_congr fun b hb => by
      rw [show V4 m c b = V3 m c b from W4_of_ne m c b fun e =>
        (Finset.mem_sdiff.mp hb).2 (e ▸ (by decide : main_v7 ∈ Finset.univ.image (Pipeline.arrRef spec1)))]
  have e0 : (pdats m 1 c).arrAt 0 cfg1.N = V3 m c main_v5 := (dat1 (V3 m) c).arrAt_in 0 rfl _
  have e1 : (pdats m 1 c).arrAt 1 cfg1.N = V3 m c main_v5 := (dat1 (V3 m) c).arrAt_in 1 rfl _
  have e2 : (pdats m 1 c).arrAt 2 cfg1.N = V3 m c main_v5 := (dat1 (V3 m) c).arrAt_in 2 rfl _
  have e3 : (pdats m 1 c).arrAt 3 cfg1.N = V3 m c main_v6 := (dat1 (V3 m) c).arrAt_in 3 rfl _
  have h5 : V4 m c main_v5 = V3 m c main_v5 := W4_of_ne m c main_v5 (by decide)
  have h6 : V4 m c main_v6 = V3 m c main_v6 := W4_of_ne m c main_v6 (by decide)
  have h7 : V4 m c main_v7 = (pdats m 1 c).arrAt 4 cfg1.N := W4_v7 m c
  rw [← Pipeline.unscopedBufs_held (Ix := Unit) (Name := ℕ) (U := UR sig nD τ) (Lvl := ℕ) c (W4 m c),
    Pipeline.unscopedBufs_split₀ cfgs 1 winFacts₀1.arr_unscoped c (V4 m c)]
  refine BI.sep_mono ?_ (Entails.of_eq hrest.symm)
  refine (Entails.of_eq (arrays1_eq m c _)).trans (BI.Entails.trans ?_ (Entails.of_eq (arrBufs1_eq c (V4 m c)).symm))
  exact gather1 c (e0.trans h5.symm) (e1.trans h5.symm) (e2.trans h5.symm) (e3.trans h6.symm) h7.symm

set_option backward.isDefEq.respectTransparency.types false in
/-- LAUNCH 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at `W5`, left at `W6`. Its arrays are
    taken out of the held buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order: a host segment per stretch from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program IS the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCore
    terminates, nothing faulting, and every final state holds the result array at the last contents of the fold
    and every argument array as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = W7 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v11 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c),
       (h c _ (mem_uc main_arg5 (by decide))).trans (W7_main_arg5 m c)⟩)

end Cert.KernelIdeal.Hand

end
-- ==== Proof.KVMat.lean ====
/-
  The four matrix products of the three kernels, read at an index: each is a plain [M, K] by [K, N] product into a
  zero accumulator, so at (p, q) it is the sum over k of l(p, k) * r(k, q) on the extended reals.
-/
import proofs.«128385_j45775761441132_2_alg».proof.Proof.Gen.KernelIdeal
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

theorem mm_proj_l0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem mm_proj_l1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
theorem mm_proj_r0 (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
theorem mm_proj_r1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product of an [512, 1024] by a [1024, 3072] block into a zero accumulator, at row p and column q: the sum over
    the shared axis of the products. -/
theorem mm_proj {φ₁ φ₂ : FTy} (l : FVec Ideal S512x1024 φ₁) (r : FVec Ideal S1024x3072 φ₂) (p : Fin 512) (q : Fin 3072) :
    matmul dot_S512x1024_S1024x3072_S512x3072_1_0_0_1_n_n none l r (constant (F := Ideal) S512x3072 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact mm_proj_l0 _ _
    | ⟨1, _⟩ => exact (mm_proj_l1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (mm_proj_r0 _ _).trans hk
    | ⟨1, _⟩ => exact mm_proj_r1 _ _)
  rw [el, er]

theorem mm_qk_l0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem mm_qk_l1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem mm_qk_r0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem mm_qk_r1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product of an [512, 64] by a [64, 2048] block into a zero accumulator, at row p and column q: the sum over
    the shared axis of the products. -/
theorem mm_qk {φ₁ φ₂ : FTy} (l : FVec Ideal S512x64 φ₁) (r : FVec Ideal S64x2048 φ₂) (p : Fin 512) (q : Fin 2048) :
    matmul dot_S512x64_S64x2048_S512x2048_1_0_0_1_n_n none l r (constant (F := Ideal) S512x2048 .f32 0x00000000#32) (ix2 p q)
      = ∑ k : Fin 64, l (ix2 p k) * r (ix2 k q) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun a => Fin.ext (by
    match a with
    | ⟨0, _⟩ => exact mm_qk_l0 _ _
    | ⟨1, _⟩ => exact (mm_qk_l1 _ _).trans hk)
  have er : dot_S512x64_S64x2048_S512x2048_1_0_0_1_n_n.rhsIdx (ix2 p q) ((contrEquiv1 dot_S512x64_S64x2048_S512x2048_1_0_0_1_n_n 64 rfl rfl).symm k) = ix2 k q := funext fun a => Fin.ext (by
    match a with
    | ⟨0, _⟩ => exact (mm_qk_r0 _ _).trans hk
    | ⟨1, _⟩ => exact mm_qk_r1 _ _)
  rw [el, er]

theorem mm_pv_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem mm_pv_l1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem mm_pv_r0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem mm_pv_r1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of an [512, 2048] by a [2048, 64] block into a zero accumulator, at row p and column q: the sum over
    the shared axis of the products. -/
theorem mm_pv {φ₁ φ₂ : FTy} (l : FVec Ideal S512x2048 φ₁) (r : FVec Ideal S2048x64 φ₂) (p : Fin 512) (q : Fin 64) :
    matmul dot_S512x2048_S2048x64_S512x64_1_0_0_1_n_n none l r (constant (F := Ideal) S512x64 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k := funext fun a => Fin.ext (by
    match a with
    | ⟨0, _⟩ => exact mm_pv_l0 _ _
    | ⟨1, _⟩ => exact (mm_pv_l1 _ _).trans hk)
  have er : dot_S512x2048_S2048x64_S512x64_1_0_0_1_n_n.rhsIdx (ix2 p q) ((contrEquiv1 dot_S512x2048_S2048x64_S512x64_1_0_0_1_n_n 2048 rfl rfl).symm k) = ix2 k q := funext fun a => Fin.ext (by
    match a with
    | ⟨0, _⟩ => exact (mm_pv_r0 _ _).trans hk
    | ⟨1, _⟩ => exact mm_pv_r1 _ _)
  rw [el, er]

theorem mm_fc_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_fc_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_fc_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_fc_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of an [512, 1024] by a [1024, 1024] block into a zero accumulator, at row p and column q: the sum over
    the shared axis of the products. -/
theorem mm_fc {φ₁ φ₂ : FTy} (l : FVec Ideal S512x1024 φ₁) (r : FVec Ideal S1024x1024 φ₂) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact mm_fc_l0 _ _
    | ⟨1, _⟩ => exact (mm_fc_l1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (mm_fc_r0 _ _).trans hk
    | ⟨1, _⟩ => exact mm_fc_r1 _ _)
  rw [el, er]

end Cert.KernelIdeal.Val

end
-- ==== Proof.KV0.lean ====
/-
  Launch 0 as one function: the 4096-row projection x·W + b, 512 rows per grid point.
  Point t loads rows 512t .. 512t+511 of the left operand, the whole right matrix and the bias row, and stores
  their product plus the bias into the same rows of the output; the eight blocks tile the output's rows, so after
  the launch the output array is that product plus bias everywhere.
-/
import proofs.«128385_j45775761441132_2_alg».proof.Proof.KIDefs
import proofs.«128385_j45775761441132_2_alg».proof.Proof.KVMat

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

/-- At row r and column f: the row of x against the column of w, plus the bias at f. -/
def proj0 (x : S4096x1024.Idx → EReal) (w : S1024x3072.Idx → EReal) (b : S1x3072.Idx → EReal) (r : Fin 4096) (f : Fin 3072) : EReal :=
  (∑ e : Fin 1024, x (ix2 r e) * w (ix2 e f)) + b (ix2 (0 : Fin 1) f)

/-- The whole product-plus-bias array. -/
def G0 (x : S4096x1024.Idx → EReal) (w : S1024x3072.Idx → EReal) (b : S1x3072.Idx → EReal) : S4096x3072.Idx → EReal :=
  fun i => proj0 x w b (i 0) (i 1)

/-- The body's stored value at (p, q): the block's row p against the right matrix's column q, plus the bias at q. -/
theorem pay0_apply (x0 : Vec Ideal S512x1024 .f32) (x1 : Vec Ideal S1024x3072 .bf16) (x2 : Vec Ideal S1x3072 .f32) (p : Fin 512) (q : Fin 3072) :
    k0_pay1 (F := Ideal) x0 x1 x2 (ix2 p q) = (∑ e : Fin 1024, x0 (ix2 p e) * x1 (ix2 e q)) + x2 (ix2 (0 : Fin 1) q) := by
  unfold k0_pay1
  show (matmul (F := Ideal) dot_S512x1024_S1024x3072_S512x3072_1_0_0_1_n_n none _ _ _) (ix2 p q) + (broadcastTo S512x3072 _ _ : FVec Ideal S512x3072 .f32) (ix2 p q) = _
  rw [mm_proj, broadcastTo_1b_ab_apply]
  simp only [shapeCast_self]
  rfl

/-- A buffer's contents read as an array of extended reals. -/
abbrev asR0 {S : Shape} (f : S.Idx → EReal) : S.Idx → EReal := f

theorem hz0 : (![0, 0] : Fin 2 → Nat) = fun _ => 0 := funext fun a => by fin_cases a <;> rfl

/-- The index maps over the grid: the left operand's block and the output's block are the same row block, in
    column block 0; the right matrix and the bias are always their one block. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block is some point's. -/
theorem idx_onto0 : ∀ (q0 : Fin 8), ∃ t : Fin cfg0.N, win0_3.index t = ![q0.val, 0] :=
  (by decide +kernel : ∀ (q0 : Fin 8), ∃ t : Fin grid0.N, win0_3.index t = ![q0.val, 0])

section
variable (V : (c : Dev nD) → (b : Ref sig .tc) → Buf (Elt Ideal) ((c : Thread nD τ).loc b))

theorem after0_3 (c : Dev nD) (t : Fin cfg0.N) :
    (dat0 V c).after 3 t = out0_3 (iblk0 V c 0 t) (iblk0 V c 1 t) (iblk0 V c 2 t) := by dsimp only [dat0]

/-- What point t writes back is its block of the whole product-plus-bias array of the launch's entry contents. -/
theorem flushed0_eq (c : Dev nD) (t : Fin cfg0.N) :
    (dat0 V c).flushed 3 t = ((cfg0.win 3).blk t).view.read (Elt Ideal) (G0 (V c main_v2) (V c main_v0) (V c main_v3)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x3072) hz0, View.ld_unit_zero (S := S1x3072) hz0]
  obtain ⟨e0, e1, e2, e3, e4, e5, e6, e7⟩ := idx_facts0 t
  funext j
  obtain ⟨p, q, rfl⟩ : ∃ (p : Fin 512) (q : Fin 3072), j = ix2 p q := ⟨j 0, j 1, eq_ix2 j⟩
  refine (pay0_apply _ _ _ p q).trans ?_
  show (∑ e : Fin 1024, asR0 (S := S4096x1024) (V c main_v2) (((cfg0.win 0).blk t).view.emb (ix2 p e)) * asR0 (S := S1024x3072) (V c main_v0) (((cfg0.win 1).blk t).view.emb (ix2 e q)))
      + asR0 (S := S1x3072) (V c main_v3) (((cfg0.win 2).blk t).view.emb (ix2 (0 : Fin 1) q))
    = proj0 (V c main_v2) (V c main_v0) (V c main_v3) ((((cfg0.win 3).blk t).view.emb (ix2 p q)) 0) ((((cfg0.win 3).blk t).view.emb (ix2 p q)) 1)
  unfold proj0
  have hq : ((((cfg0.win 3).blk t).view.emb (ix2 p q)) 1) = q := Fin.ext (by
    show win0_3.index t (1 : Fin 2) * 3072 + 1 * q.val = q.val; omega)
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 3072 + 1 * q.val = q.val; omega
  rw [hq, h2]
  refine congrArg (· + _) (Finset.sum_congr rfl fun e _ => ?_)
  have h0 : ((cfg0.win 0).blk t).view.emb (ix2 p e) = ix2 ((((cfg0.win 3).blk t).view.emb (ix2 p q)) 0) e := by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * e.val = e.val; omega
  have h1 : ((cfg0.win 1).blk t).view.emb (ix2 e q) = ix2 e q := by
    funext a; apply Fin.ext
    match a with
    | ⟨0, _⟩ => show win0_1.index t (0 : Fin 2) * 1024 + 1 * e.val = e.val; omega
    | ⟨1, _⟩ => show win0_1.index t (1 : Fin 2) * 3072 + 1 * q.val = q.val; omega
  rw [h0, h1]
  rfl

/-- An index of the output array is in point t's block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Every index of the output array lies in some point's block: the point whose row block holds the row. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- After the launch the output array is the product plus bias of the launch's entry contents. -/
theorem final0 (c : Dev nD) : (dat0 V c).arrAt 3 cfg0.N = G0 (V c main_v2) (V c main_v0) (V c main_v3) :=
  (dat0 V c).arrAt_eq_of_cover 3 _ (fun t _ => flushed0_eq V c t) (cover0)

end

end Cert.KernelIdeal.Val

end
-- ==== Proof.Spec.lean ====
/-
  Multi-head self-attention over the extended reals, index by index: the one function both programs compute.

  Sizes: batch 2, sequence 2048, model width 1024 = 16 heads of 64. The projected array holds q, k, v side by
  side in its 3072 columns: head h's query coordinates are columns 64h .. 64h+63, its key coordinates columns
  1024+64h .., its value coordinates columns 2048+64h .. .
    qkv  (b, s, f)   = sum_e x(b,s,e) * w(e,f) + bias(f)
    score(b, h, q, k) = fill if mask(b,q,k), else (sum_d qkv(b,q,64h+d) * qkv(b,k,1024+64h+d)) * scale
    prob (b, h, q, k) = exp(score - rowmax) / sum_k' exp(score(.,k') - rowmax),   rowmax the maximum over k
    attn (b, s, e)   = sum_k prob(b, e/64, s, k) * qkv(b, k, 2048+e)
    out  (b, s, f)   = sum_e attn(b,s,e) * fc(e,f) + fcb(f)
  The scale is the binary32 word of 1/8, the fill the binary32 word nearest 1e-9, the reduction's start the
  word of minus infinity; they are kept as words (the same words occur on both sides and are never evaluated,
  except the scale against the reference's division by the square root of 64).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The word of 1/8. -/
def scale : EReal := Ideal.ofBits .f32 0x3E000000#32
/-- The word the masked positions are filled with. -/
def fill : EReal := Ideal.ofBits .f32 0x3089705F#32
/-- The word of minus infinity, the maximum's start value. -/
def negInf : EReal := Ideal.ofBits .f32 0xFF800000#32

/-- The projection x·W + b at (batch, position, column). -/
def qkv (x : FVec Ideal ⟨3, ![2, 2048, 1024]⟩ .f32) (w : FVec Ideal ⟨2, ![1024, 3072]⟩ .f32) (b : FVec Ideal ⟨1, ![3072]⟩ .f32)
    (bi : Fin 2) (s : Fin 2048) (f : Fin 3072) : EReal :=
  (∑ e : Fin 1024, x (ix3 bi s e) * w (ix2 e f)) + b (ix1 f)

/-- Column 64h+d of the projected array (head h's query coordinate d). -/
def qcol (h : Fin 16) (d : Fin 64) : Fin 3072 := ⟨64 * h.val + d.val, by omega⟩
/-- Column 1024+64h+d (head h's key coordinate d). -/
def kcol (h : Fin 16) (d : Fin 64) : Fin 3072 := ⟨1024 + 64 * h.val + d.val, by omega⟩
/-- Column 2048+e (value coordinate of output column e). -/
def vcol (e : Fin 1024) : Fin 3072 := ⟨2048 + e.val, by omega⟩
/-- The head an output column belongs to. -/
def headOf (e : Fin 1024) : Fin 16 := ⟨e.val / 64, by omega⟩

/-- The masked, scaled score of query position q against key position k in head h. -/
def score (Q : Fin 2 → Fin 2048 → Fin 3072 → EReal) (mask : IVec ⟨3, ![2, 2048, 2048]⟩ 1)
    (bi : Fin 2) (h : Fin 16) (q k : Fin 2048) : EReal :=
  Scalar.select (mask (ix3 bi q k)) fill ((∑ d : Fin 64, Q bi q (qcol h d) * Q bi k (kcol h d)) * scale)

/-- A row's maximum, from minus infinity. -/
def rowmax (s : Fin 2048 → EReal) : EReal := (Finset.univ : Finset (Fin 2048)).fold max negInf s

/-- The softmax of a row at position k. -/
def soft (s : Fin 2048 → EReal) (k : Fin 2048) : EReal :=
  Ideal.div (Ideal.exp (s k - rowmax s)) (∑ k' : Fin 2048, Ideal.exp (s k' - rowmax s))

/-- The attention output at (batch, position, column). -/
def attn (Q : Fin 2 → Fin 2048 → Fin 3072 → EReal) (mask : IVec ⟨3, ![2, 2048, 2048]⟩ 1)
    (bi : Fin 2) (s : Fin 2048) (e : Fin 1024) : EReal :=
  ∑ k : Fin 2048, soft (fun k' => score Q mask bi (headOf e) s k') k * Q bi k (vcol e)

/-- The output projection a·Wfc + bfc at (batch, position, column). -/
def proj (A : Fin 2 → Fin 2048 → Fin 1024 → EReal) (fc : FVec Ideal ⟨2, ![1024, 1024]⟩ .f32) (fcb : FVec Ideal ⟨1, ![1024]⟩ .f32)
    (bi : Fin 2) (s : Fin 2048) (f : Fin 1024) : EReal :=
  (∑ e : Fin 1024, A bi s e * fc (ix2 e f)) + fcb (ix1 f)

/-- The whole layer, as one array of the six arguments. -/
def G (x : FVec Ideal ⟨3, ![2, 2048, 1024]⟩ .f32) (mask : IVec ⟨3, ![2, 2048, 2048]⟩ 1) (w : FVec Ideal ⟨2, ![1024, 3072]⟩ .f32)
    (b : FVec Ideal ⟨1, ![3072]⟩ .f32) (fc : FVec Ideal ⟨2, ![1024, 1024]⟩ .f32) (fcb : FVec Ideal ⟨1, ![1024]⟩ .f32) :
    FVec Ideal ⟨3, ![2, 2048, 1024]⟩ .f32 :=
  fun i => proj (attn (qkv x w b) mask) fc fcb (i 0) (i 1) (i 2)

end Cert.Attn

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KV1a.lean ====
/-
  One attention head inside the kernel body, read at an index. From a [512, 2048] matrix of masked, scaled scores
  and a [2048, 64] block of values the body takes each row's maximum, exponentiates the differences, divides by
  the row's sum and multiplies by the values: at (p, d) that is the sum over k of softmax(row p)(k) * v(k, d).
-/
import proofs.«128385_j45775761441132_2_alg».proof.Proof.Spec
import proofs.«128385_j45775761441132_2_alg».proof.Proof.KVMat
import proofs.«128385_j45775761441132_2_alg».proof.Proof.LibKeepdims

noncomputable section

namespace Cert.KernelIdeal.Val

open Cert.KernelIdeal Cert.KernelIdeal.Gen Idealize.ShloMosaic Idealize.ShloMosaic.ValueIdx

/-- The exponentials of a score matrix's entries minus their row's maximum, as the body computes them. -/
abbrev expShift (sc : FVec Ideal S512x2048 .f32) : FVec Ideal S512x2048 .f32 :=
  exp (subf sc (broadcastTo S512x2048 (shapeCast S512x1 (multiReduction .maximumf [1] S512 sc 0xFF800000#32 reduces_S512x2048_S512 (.inl rfl) rfl) shapeCasts_S512_S512x1) broadcasts_S512x1_S512x2048))

/-- An entry of `expShift`: the exponential of the entry minus the row's maximum. -/
theorem expShift_apply (sc : FVec Ideal S512x2048 .f32) (p : Fin 512) (k : Fin 2048) :
    expShift sc (ix2 p k) = Ideal.exp (sc (ix2 p k) - Cert.Attn.rowmax (fun k' => sc (ix2 p k'))) := by
  show Ideal.exp (sc (ix2 p k) - (broadcastTo S512x2048 _ broadcasts_S512x1_S512x2048) (ix2 p k)) = _
  rw [broadcastTo_a1_ab_apply, shapeCast_a_a1_apply]
  refine congrArg (fun z => Ideal.exp (sc (ix2 p k) - z)) ?_
  exact rowMax_apply sc _ _ _ _ p

/-- The normalised probabilities times the values, as the body computes them from a score matrix. -/
abbrev headOut (sc : FVec Ideal S512x2048 .f32) (v : FVec Ideal S2048x64 .bf16) : FVec Ideal S512x64 .bf16 :=
  truncf .bf16 (matmul dot_S512x2048_S2048x64_S512x64_1_0_0_1_n_n none
    (truncf .bf16 (divf (expShift sc) (broadcastTo S512x2048 (shapeCast S512x1 (multiReduction .add [1] S512 (expShift sc) 0x00000000#32 reduces_S512x2048_S512 (.inl rfl) rfl) shapeCasts_S512_S512x1) broadcasts_S512x1_S512x2048)) bitsLt_bf16_f32)
    v (constant S512x64 .f32 0x00000000#32)) bitsLt_bf16_f32

/-- A head's output at (p, d): the softmax of row p of the scores against column d of the values. -/
theorem headOut_apply (sc : FVec Ideal S512x2048 .f32) (v : FVec Ideal S2048x64 .bf16) (p : Fin 512) (d : Fin 64) :
    headOut sc v (ix2 p d) = ∑ k : Fin 2048, Cert.Attn.soft (fun k' => sc (ix2 p k')) k * v (ix2 k d) := by
  show (matmul dot_S512x2048_S2048x64_S512x64_1_0_0_1_n_n none _ v (constant (F := Ideal) S512x64 .f32 0x00000000#32)) (ix2 p d) = _
  rw [mm_pv]
  refine Finset.sum_congr rfl fun k _ => ?_
  refine congrArg (· * v (ix2 k d)) ?_
  show Ideal.div (expShift sc (ix2 p k)) ((broadcastTo S512x2048 _ broadcasts_S512x1_S512x2048) (ix2 p k)) = _
  rw [broadcastTo_a1_ab_apply, shapeCast_a_a1_apply, expShift_apply]
  unfold Cert.Attn.soft
  refine congrArg (Ideal.div _) ?_
  refine (rowSum_apply (expShift sc) _ _ _ _ p).trans ?_
  exact Finset.sum_congr rfl fun k' _ => expShift_apply sc p k'

end Cert.KernelIdeal.Val

end
-- ==== Proof.KV1b.lean ====
/-
  The attention body's stored block, read at an index. The body cuts the query, key and value blocks (128 columns:
  two heads of 64) into their two heads, forms each head's masked, scaled scores, softmaxes every row, multiplies
  by the head's values and writes the two heads' outputs side by side. Column c of the output belongs to head
  c / 64; its scores use the 64 query and key columns of that head, and its values are column c of the value block.
-/
import proofs.«128385_j45775761441132_2_alg».proof.Proof.KIDefs
import proofs.«128385_j45775761441132_2_alg».proof.Proof.KV1a

noncomputable section

namespace Cert.KernelIdeal.Val

open Cert.KernelIdeal Cert.KernelIdeal.Gen Cert.KernelIdeal.Hand Idealize.ShloMosaic Idealize.ShloMosaic.ValueIdx

/-- Column d of the head that output column c belongs to, inside a 128-column block. -/
def hcol (c : Fin 128) (d : Fin 64) : Fin 128 := ⟨64 * (c.val / 64) + d.val, by omega⟩

/-- One head's masked, scaled scores as the body forms them: the queries against the transposed keys, times the
    scale, with the fill value where the mask is set. -/
abbrev scoreOf (q : FVec Ideal S512x64 .bf16) (k : FVec Ideal S2048x64 .bf16) (msk : IVec S512x2048 1) : FVec Ideal S512x2048 .f32 :=
  select msk (broadcast S512x2048 (Scalar.ofBits .f32 0x3089705F#32))
    (mulf (matmul dot_S512x64_S64x2048_S512x2048_1_0_0_1_n_n none q (transpose S64x2048 [1, 0] k transposes_S2048x64_p1_0_S64x2048) (constant S512x2048 .f32 0x00000000#32))
      (broadcast S512x2048 (Scalar.ofBits .f32 0x3E000000#32)))

/-- A score at (p, kk): the fill where masked, else the query row against the key row, scaled. -/
theorem scoreOf_apply (q : FVec Ideal S512x64 .bf16) (k : FVec Ideal S2048x64 .bf16) (msk : IVec S512x2048 1) (p : Fin 512) (kk : Fin 2048) :
    scoreOf q k msk (ix2 p kk) = Scalar.select (msk (ix2 p kk)) Cert.Attn.fill ((∑ d : Fin 64, q (ix2 p d) * k (ix2 kk d)) * Cert.Attn.scale) := by
  show Scalar.select (msk (ix2 p kk)) _ ((matmul (F := Ideal) dot_S512x64_S64x2048_S512x2048_1_0_0_1_n_n none q _ _) (ix2 p kk) * _) = _
  rw [mm_qk]
  refine congrArg (fun z => Scalar.select (msk (ix2 p kk)) Cert.Attn.fill (z * Cert.Attn.scale)) (Finset.sum_congr rfl fun d _ => ?_)
  exact congrArg (q (ix2 p d) * ·) (transpose_ix2_apply k _ d kk)

/-- A 64-column cut of the query block, squeezed to a matrix, at (p, d): the block at column o + d. -/
theorem qcut_apply (o : Nat) (v0 : Vec Ideal S1x512x128 .bf16) (h : S512x128.Slices ![0, o] S512x64) (p : Fin 512) (d : Fin 64) (col : Fin 128) (hc : col.val = o + d.val) :
    extractStridedSlice S512x64 ![0, o] (k1_pay2 (F := Ideal) v0) h (ix2 p d) = v0 (ix3 (0 : Fin 1) p col) := by
  unfold k1_pay2
  exact (slice2_axis1_apply o _ h p d col hc).trans (shapeCast_1ab_ab_apply v0 _ p col)

/-- A 64-column cut of a key or value block, squeezed to a matrix, at (kk, d): the block at column o + d. -/
theorem kcut_apply (o : Nat) (v2 : Vec Ideal S1x2048x128 .bf16) (h : S2048x128.Slices ![0, o] S2048x64) (kk : Fin 2048) (d : Fin 64) (col : Fin 128) (hc : col.val = o + d.val) :
    extractStridedSlice S2048x64 ![0, o] (k1_pay3 (F := Ideal) v2) h (ix2 kk d) = v2 (ix3 (0 : Fin 1) kk col) := by
  unfold k1_pay3
  exact (slice2_axis1_apply o _ h kk d col hc).trans (shapeCast_1ab_ab_apply v2 _ kk col)

theorem vcut_apply (o : Nat) (v4 : Vec Ideal S1x2048x128 .bf16) (h : S2048x128.Slices ![0, o] S2048x64) (kk : Fin 2048) (d : Fin 64) (col : Fin 128) (hc : col.val = o + d.val) :
    extractStridedSlice S2048x64 ![0, o] (k1_pay4 (F := Ideal) v4) h (ix2 kk d) = v4 (ix3 (0 : Fin 1) kk col) := by
  unfold k1_pay4
  exact (slice2_axis1_apply o _ h kk d col hc).trans (shapeCast_1ab_ab_apply v4 _ kk col)

/-- The mask bit the body derives from the widened mask word at (p, kk). -/
theorem mask_apply (v6 : Vec Ideal S1x512x2048 .i32) (p : Fin 512) (kk : Fin 2048) :
    k1_pay5 (F := Ideal) v6 (ix2 p kk) = IntOp.cmpi .ne (v6 (ix3 (0 : Fin 1) p kk)) 0#32 := by
  unfold k1_pay5
  show IntOp.cmpi .ne ((shapeCast S512x2048 v6 shapeCasts_S1x512x2048_S512x2048) (ix2 p kk)) _ = _
  rw [shapeCast_1ab_ab_apply]
  rfl

/-- The row of scores of the head starting at block column o, against query row p, in terms of the blocks. -/
def rowScores (o : Nat) (ho : o + 64 ≤ 128) (x0 : Vec Ideal S1x512x128 .bf16) (x1 : Vec Ideal S1x2048x128 .bf16) (x3 : Vec Ideal S1x512x2048 .i32) (p : Fin 512) (k' : Fin 2048) : EReal :=
  Scalar.select (IntOp.cmpi .ne (x3 (ix3 (0 : Fin 1) p k')) 0#32) Cert.Attn.fill
    ((∑ d : Fin 64, x0 (ix3 (0 : Fin 1) p ⟨o + d.val, by omega⟩) * x1 (ix3 (0 : Fin 1) k' ⟨o + d.val, by omega⟩)) * Cert.Attn.scale)

/-- The first head's output (block columns 0 .. 63) at (p, d). -/
theorem headA_apply (x0 : Vec Ideal S1x512x128 .bf16) (x1 x2 : Vec Ideal S1x2048x128 .bf16) (x3 : Vec Ideal S1x512x2048 .i32) (p : Fin 512) (d : Fin 64) :
    k1_pay7 (F := Ideal) x0 x1 x2 x3 (ix2 p d)
      = ∑ k : Fin 2048, Cert.Attn.soft (rowScores 0 (by omega) x0 x1 x3 p) k * x2 (ix3 (0 : Fin 1) k ⟨0 + d.val, by omega⟩) := by
  unfold k1_pay7
  refine (headOut_apply _ _ p d).trans ?_
  refine Finset.sum_congr rfl fun k _ => ?_
  rw [vcut_apply 0 x2 _ k d ⟨0 + d.val, by omega⟩ rfl]
  refine congrArg (fun s => Cert.Attn.soft s k * _) (funext fun k' => ?_)
  refine (scoreOf_apply _ _ _ p k').trans ?_
  rw [mask_apply]
  unfold rowScores
  refine congrArg (fun z => Scalar.select _ _ (z * _)) (Finset.sum_congr rfl fun dd _ => ?_)
  rw [qcut_apply 0 x0 _ p dd ⟨0 + dd.val, by omega⟩ rfl, kcut_apply 0 x1 _ k' dd ⟨0 + dd.val, by omega⟩ rfl]

/-- The second head's output (block columns 64 .. 127) at (p, d), as the last part of the body forms it. -/
theorem headB_apply (x0 : Vec Ideal S1x512x128 .bf16) (x1 x2 : Vec Ideal S1x2048x128 .bf16) (x3 : Vec Ideal S1x512x2048 .i32) (p : Fin 512) (d : Fin 64) :
    headOut (select (k1_pay5 (F := Ideal) x3) (broadcast S512x2048 (Scalar.ofBits .f32 0x3089705F#32)) (mulf (k1_pay8 (F := Ideal) x0 x1) (k1_pay9 (F := Ideal)))) (k1_pay6 (F := Ideal) x2) (ix2 p d)
      = ∑ k : Fin 2048, Cert.Attn.soft (rowScores 64 (by omega) x0 x1 x3 p) k * x2 (ix3 (0 : Fin 1) k ⟨64 + d.val, by omega⟩) := by
  refine (headOut_apply _ _ p d).trans ?_
  refine Finset.sum_congr rfl fun k _ => ?_
  unfold k1_pay6
  rw [vcut_apply 64 x2 _ k d ⟨64 + d.val, by omega⟩ rfl]
  refine congrArg (fun s => Cert.Attn.soft s k * _) (funext fun k' => ?_)
  unfold k1_pay8 k1_pay9
  refine (scoreOf_apply _ _ _ p k').trans ?_
  rw [mask_apply]
  unfold rowScores
  refine congrArg (fun z => Scalar.select _ _ (z * _)) (Finset.sum_congr rfl fun dd _ => ?_)
  rw [qcut_apply 64 x0 _ p dd ⟨64 + dd.val, by omega⟩ rfl, kcut_apply 64 x1 _ k' dd ⟨64 + dd.val, by omega⟩ rfl]

/-- The body's stored value at (0, p, c): the softmax of query row p's scores in the head of column c against
    column c of the values. -/
theorem pay1_apply (x0 : Vec Ideal S1x512x128 .bf16) (x1 x2 : Vec Ideal S1x2048x128 .bf16) (x3 : Vec Ideal S1x512x2048 .i32) (p : Fin 512) (c : Fin 128) :
    k1_pay1 (F := Ideal) (k1_pay5 x3) (k1_pay6 x2) (k1_pay7 x0 x1 x2 x3) (k1_pay8 x0 x1) k1_pay9 (ix3 (0 : Fin 1) p c)
      = ∑ k : Fin 2048, Cert.Attn.soft (fun k' => Scalar.select (IntOp.cmpi .ne (x3 (ix3 (0 : Fin 1) p k')) 0#32) Cert.Attn.fill
          ((∑ d : Fin 64, x0 (ix3 (0 : Fin 1) p (hcol c d)) * x1 (ix3 (0 : Fin 1) k' (hcol c d))) * Cert.Attn.scale)) k * x2 (ix3 (0 : Fin 1) k c) := by
  unfold k1_pay1
  rw [shapeCast_ab_1ab_apply]
  by_cases hc : c.val < 64
  · refine (concatenate_pair_apply_left (t := S512x128) (s₁ := S512x64) (s₂ := S512x64) (1 : Fin 2) _ _ _ (ix2 p c) rfl (ix2 p (⟨c.val, hc⟩ : Fin 64) : S512x64.Idx)
      (fun b => by match b with | ⟨0, _⟩ => rfl | ⟨1, _⟩ => rfl)).trans ?_
    refine (headA_apply x0 x1 x2 x3 p ⟨c.val, hc⟩).trans (Finset.sum_congr rfl fun k _ => ?_)
    have e2 : (⟨0 + c.val, by omega⟩ : Fin 128) = c := Fin.ext (Nat.zero_add _)
    have e1 : ∀ d : Fin 64, (⟨0 + d.val, by omega⟩ : Fin 128) = hcol c d := fun d => Fin.ext (by
      show 0 + d.val = 64 * (c.val / 64) + d.val
      have : c.val / 64 = 0 := by omega
      omega)
    unfold rowScores
    simp only [e1]
    exact congrArg (fun z => _ * x2 (ix3 (0 : Fin 1) k z)) e2
  · have hc' : c.val - 64 < 64 := by have := c.isLt; omega
    refine (concatenate_pair_apply_right (t := S512x128) (s₁ := S512x64) (s₂ := S512x64) (1 : Fin 2) _ _ _ (ix2 p c) rfl rfl (ix2 p (⟨c.val - 64, hc'⟩ : Fin 64) : S512x64.Idx)
      (fun b hb => by match b with | ⟨0, _⟩ => rfl | ⟨1, _⟩ => exact absurd rfl hb)
      (by show (c.val - 64) + 64 = c.val; omega)).trans ?_
    refine (headB_apply x0 x1 x2 x3 p ⟨c.val - 64, hc'⟩).trans (Finset.sum_congr rfl fun k _ => ?_)
    have e2 : (⟨64 + (c.val - 64), by omega⟩ : Fin 128) = c := Fin.ext (by show 64 + (c.val - 64) = c.val; omega)
    have e1 : ∀ d : Fin 64, (⟨64 + d.val, by omega⟩ : Fin 128) = hcol c d := fun d => Fin.ext (by
      show 64 + d.val = 64 * (c.val / 64) + d.val
      have : c.val / 64 = 1 := by have := c.isLt; omega
      omega)
    unfold rowScores
    simp only [e1]
    exact congrArg (fun z => _ * x2 (ix3 (0 : Fin 1) k z)) e2

theorem hz1 : (![0, 0, 0] : Fin 3 → Nat) = fun _ => 0 := funext fun a => by fin_cases a <;> rfl

/-- The output window's buffer after the body, at (0, p, c). -/
theorem out1_4_apply (x0 : Vec Ideal S1x512x128 .bf16) (x1 x2 : Vec Ideal S1x2048x128 .bf16) (x3 : Vec Ideal S1x512x2048 .i32) (p : Fin 512) (c : Fin 128) :
    out1_4 (F := Ideal) x0 x1 x2 x3 (ix3 (0 : Fin 1) p c)
      = ∑ k : Fin 2048, Cert.Attn.soft (fun k' => Scalar.select (IntOp.cmpi .ne (x3 (ix3 (0 : Fin 1) p k')) 0#32) Cert.Attn.fill
          ((∑ d : Fin 64, x0 (ix3 (0 : Fin 1) p (hcol c d)) * x1 (ix3 (0 : Fin 1) k' (hcol c d))) * Cert.Attn.scale)) k * x2 (ix3 (0 : Fin 1) k c) := by
  unfold out1_4
  rw [View.canon_unit_zero hz1]
  simp only [View.ld_unit_zero (S := S1x512x128) hz1, View.ld_unit_zero (S := S1x2048x128) hz1, View.ld_unit_zero (S := S1x512x2048) hz1]
  exact pay1_apply x0 x1 x2 x3 p c

end Cert.KernelIdeal.Val

end
-- ==== Proof.KV1c.lean ====
/-
  Launch 1 as one function: every (batch, position, column) of the attention output from the projected array
  and the mask. Point (b, hp, qi) loads query rows 512qi .. 512qi+511 of head pair hp (columns 128hp .. 128hp+127
  of the projected array), all 2048 key rows (columns 1024+128hp ..) and value rows (columns 2048+128hp ..) of
  that pair, and the mask rows of the query tile, and stores the two heads' outputs into rows 512qi .. and
  columns 128hp .. of the output; the 64 blocks tile the output, so after the launch the output array is the
  attention sum everywhere.
-/
import proofs.«128385_j45775761441132_2_alg».proof.Proof.KIDefs
import proofs.«128385_j45775761441132_2_alg».proof.Proof.Spec
import proofs.«128385_j45775761441132_2_alg».proof.Proof.KVMat
import proofs.«128385_j45775761441132_2_alg».proof.Proof.KV1b

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

/-- The mask as the kernel reads it: a 32-bit word per position, set where the word is not zero. -/
def mask32 (M : S2x2048x2048.Idx → BitVec 32) : IVec S2x2048x2048 1 := cmpi .ne M (constantI S2x2048x2048 32 0#32)

/-- The attention output as one array of the projected array and the mask words. -/
def G1 (QKV : S2x2048x3072.Idx → EReal) (M : S2x2048x2048.Idx → BitVec 32) : S2x2048x1024.Idx → EReal :=
  fun i => Cert.Attn.attn (fun b s f => QKV (ix3 b s f)) (mask32 M) (i 0) (i 1) (i 2)

/-- A buffer's contents read as an array of extended reals. -/
abbrev asR1 {S : Shape} (f : S.Idx → EReal) : S.Idx → EReal := f
/-- A buffer's contents read as an array of 32-bit words. -/
abbrev asI1 {S : Shape} (f : S.Idx → BitVec 32) : S.Idx → BitVec 32 := f

/-- The index maps over the grid: the query and mask tiles sit at the output block's batch and row block, the key
    and value blocks at its batch, all rows, and the query's column block shifted by 8 and 16 blocks. -/
theorem idx_facts1 : ∀ t : Fin cfg1.N, win1_0.index t (0 : Fin 3) = win1_4.index t (0 : Fin 3)
    ∧ win1_0.index t (1 : Fin 3) = win1_4.index t (1 : Fin 3)
    ∧ win1_0.index t (2 : Fin 3) = win1_4.index t (2 : Fin 3)
    ∧ win1_1.index t (0 : Fin 3) = win1_4.index t (0 : Fin 3)
    ∧ win1_1.index t (1 : Fin 3) = 0
    ∧ win1_1.index t (2 : Fin 3) = 8 + win1_4.index t (2 : Fin 3)
    ∧ win1_2.index t (0 : Fin 3) = win1_4.index t (0 : Fin 3)
    ∧ win1_2.index t (1 : Fin 3) = 0
    ∧ win1_2.index t (2 : Fin 3) = 16 + win1_4.index t (2 : Fin 3)
    ∧ win1_3.index t (0 : Fin 3) = win1_4.index t (0 : Fin 3)
    ∧ win1_3.index t (1 : Fin 3) = win1_4.index t (1 : Fin 3)
    ∧ win1_3.index t (2 : Fin 3) = 0
    ∧ win1_4.index t (0 : Fin 3) ≤ 1 ∧ win1_4.index t (1 : Fin 3) ≤ 3 ∧ win1_4.index t (2 : Fin 3) ≤ 7 :=
  (by decide +kernel : ∀ t : Fin grid1.N, _)

/-- Every output block is some point's. -/
theorem idx_onto1 : ∀ (q0 : Fin 2) (q1 : Fin 4) (q2 : Fin 8), ∃ t : Fin cfg1.N, win1_4.index t = ![q0.val, q1.val, q2.val] :=
  (by decide +kernel : ∀ (q0 : Fin 2) (q1 : Fin 4) (q2 : Fin 8), ∃ t : Fin grid1.N, win1_4.index t = ![q0.val, q1.val, q2.val])

section
variable (V : (c : Dev nD) → (b : Ref sig .tc) → Buf (Elt Ideal) ((c : Thread nD τ).loc b))

theorem after1_4 (c : Dev nD) (t : Fin cfg1.N) :
    (dat1 V c).after 4 t = out1_4 (iblk1 V c 0 t) (iblk1 V c 1 t) (iblk1 V c 2 t) (iblk1 V c 3 t) := by dsimp only [dat1]

/-- What point t writes back is its block of the attention output of the launch's entry contents. -/
theorem flushed1_eq (c : Dev nD) (t : Fin cfg1.N) :
    (dat1 V c).flushed 4 t = ((cfg1.win 4).blk t).view.read (Elt Ideal) (G1 (V c main_v5) (V c main_v6)) := by
  show (cfg1.win 4).cut (grid1.coords t) ((dat1 V c).after 4 t) = _
  rw [after1_4]
  obtain ⟨e00, e01, e02, e10, e11, e12, e20, e21, e22, e30, e31, e32, b0, b1, b2⟩ := idx_facts1 t
  funext j
  obtain ⟨z, p, cc, rfl⟩ : ∃ (z : Fin 1) (p : Fin 512) (cc : Fin 128), j = ix3 z p cc := ⟨j 0, j 1, j 2, eq_ix3 j⟩
  obtain rfl : z = 0 := Subsingleton.elim _ _
  have hp := p.isLt
  have hcc := cc.isLt
  refine (out1_4_apply _ _ _ _ p cc).trans ?_
  show (∑ k : Fin 2048, Cert.Attn.soft (fun k' => Scalar.select (IntOp.cmpi .ne (asI1 (S := S2x2048x2048) (V c main_v6) (((cfg1.win 3).blk t).view.emb (ix3 (0 : Fin 1) p k'))) 0#32) Cert.Attn.fill
        ((∑ d : Fin 64, asR1 (S := S2x2048x3072) (V c main_v5) (((cfg1.win 0).blk t).view.emb (ix3 (0 : Fin 1) p (hcol cc d)))
            * asR1 (S := S2x2048x3072) (V c main_v5) (((cfg1.win 1).blk t).view.emb (ix3 (0 : Fin 1) k' (hcol cc d)))) * Cert.Attn.scale)) k
        * asR1 (S := S2x2048x3072) (V c main_v5) (((cfg1.win 2).blk t).view.emb (ix3 (0 : Fin 1) k cc)))
    = Cert.Attn.attn (fun b s f => asR1 (S := S2x2048x3072) (V c main_v5) (ix3 b s f)) (mask32 (V c main_v6))
        ((((cfg1.win 4).blk t).view.emb (ix3 (0 : Fin 1) p cc)) 0) ((((cfg1.win 4).blk t).view.emb (ix3 (0 : Fin 1) p cc)) 1)
        ((((cfg1.win 4).blk t).view.emb (ix3 (0 : Fin 1) p cc)) 2)
  unfold Cert.Attn.attn
  refine Finset.sum_congr rfl fun k _ => ?_
  have hk := k.isLt
  have h2 : ((cfg1.win 2).blk t).view.emb (ix3 (0 : Fin 1) k cc)
      = ix3 ((((cfg1.win 4).blk t).view.emb (ix3 (0 : Fin 1) p cc)) 0) k (Cert.Attn.vcol ((((cfg1.win 4).blk t).view.emb (ix3 (0 : Fin 1) p cc)) 2)) := by
    funext a; apply Fin.ext
    match a with
    | ⟨0, _⟩ => show win1_2.index t (0 : Fin 3) * 1 + 1 * 0 = win1_4.index t (0 : Fin 3) * 1 + 1 * 0; omega
    | ⟨1, _⟩ => show win1_2.index t (1 : Fin 3) * 2048 + 1 * k.val = k.val; omega
    | ⟨2, _⟩ => show win1_2.index t (2 : Fin 3) * 128 + 1 * cc.val = 2048 + (win1_4.index t (2 : Fin 3) * 128 + 1 * cc.val); omega
  rw [h2]
  refine congrArg (fun s => Cert.Attn.soft s k * _) (funext fun k' => ?_)
  have hk' := k'.isLt
  unfold Cert.Attn.score
  have h3 : ((cfg1.win 3).blk t).view.emb (ix3 (0 : Fin 1) p k')
      = ix3 ((((cfg1.win 4).blk t).view.emb (ix3 (0 : Fin 1) p cc)) 0) ((((cfg1.win 4).blk t).view.emb (ix3 (0 : Fin 1) p cc)) 1) k' := by
    funext a; apply Fin.ext
    match a with
    | ⟨0, _⟩ => show win1_3.index t (0 : Fin 3) * 1 + 1 * 0 = win1_4.index t (0 : Fin 3) * 1 + 1 * 0; omega
    | ⟨1, _⟩ => show win1_3.index t (1 : Fin 3) * 512 + 1 * p.val = win1_4.index t (1 : Fin 3) * 512 + 1 * p.val; omega
    | ⟨2, _⟩ => show win1_3.index t (2 : Fin 3) * 2048 + 1 * k'.val = k'.val; omega
  rw [h3]
  refine congrArg (fun s => Scalar.select _ Cert.Attn.fill (s * Cert.Attn.scale)) (Finset.sum_congr rfl fun d _ => ?_)
  have hd := d.isLt
  have h0 : ((cfg1.win 0).blk t).view.emb (ix3 (0 : Fin 1) p (hcol cc d))
      = ix3 ((((cfg1.win 4).blk t).view.emb (ix3 (0 : Fin 1) p cc)) 0) ((((cfg1.win 4).blk t).view.emb (ix3 (0 : Fin 1) p cc)) 1)
          (Cert.Attn.qcol (Cert.Attn.headOf ((((cfg1.win 4).blk t).view.emb (ix3 (0 : Fin 1) p cc)) 2)) d) := by
    funext a; apply Fin.ext
    match a with
    | ⟨0, _⟩ => show win1_0.index t (0 : Fin 3) * 1 + 1 * 0 = win1_4.index t (0 : Fin 3) * 1 + 1 * 0; omega
    | ⟨1, _⟩ => show win1_0.index t (1 : Fin 3) * 512 + 1 * p.val = win1_4.index t (1 : Fin 3) * 512 + 1 * p.val; omega
    | ⟨2, _⟩ => show win1_0.index t (2 : Fin 3) * 128 + 1 * (64 * (cc.val / 64) + d.val) = 64 * ((win1_4.index t (2 : Fin 3) * 128 + 1 * cc.val) / 64) + d.val; omega
  have h1 : ((cfg1.win 1).blk t).view.emb (ix3 (0 : Fin 1) k' (hcol cc d))
      = ix3 ((((cfg1.win 4).blk t).view.emb (ix3 (0 : Fin 1) p cc)) 0) k'
          (Cert.Attn.kcol (Cert.Attn.headOf ((((cfg1.win 4).blk t).view.emb (ix3 (0 : Fin 1) p cc)) 2)) d) := by
    funext a; apply Fin.ext
    match a with
    | ⟨0, _⟩ => show win1_1.index t (0 : Fin 3) * 1 + 1 * 0 = win1_4.index t (0 : Fin 3) * 1 + 1 * 0; omega
    | ⟨1, _⟩ => show win1_1.index t (1 : Fin 3) * 2048 + 1 * k'.val = k'.val; omega
    | ⟨2, _⟩ => show win1_1.index t (2 : Fin 3) * 128 + 1 * (64 * (cc.val / 64) + d.val) = 1024 + 64 * ((win1_4.index t (2 : Fin 3) * 128 + 1 * cc.val) / 64) + d.val; omega
  rw [h0, h1]
  rfl

/-- An index of the output array is in point t's block iff each coordinate is in the block's range on its axis. -/
theorem mem_blk1 (t : Fin cfg1.N) (i : S2x2048x1024.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v7).slice (win1_4.rect t)).set ↔ _
  rw [View.set_slice_whole, Rect.mem_set_unit]
  exact Iff.rfl

/-- Every index of the output array lies in some point's block: the point of its batch, row block and column block. -/
theorem cover1 (i : S2x2048x1024.Idx) : ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 1024 := (i 2).isLt
  obtain ⟨t, ht⟩ := idx_onto1 ⟨(i 0).val, by omega⟩ ⟨(i 1).val / 512, by omega⟩ ⟨(i 2).val / 128, by omega⟩
  have q0 : win1_4.index t (0 : Fin 3) = (i 0).val := congrFun ht 0
  have q1 : win1_4.index t (1 : Fin 3) = (i 1).val / 512 := congrFun ht 1
  have q2 : win1_4.index t (2 : Fin 3) = (i 2).val / 128 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- After the launch the output array is the attention output of the launch's entry contents. -/
theorem final1 (c : Dev nD) : (dat1 V c).arrAt 4 cfg1.N = G1 (V c main_v5) (V c main_v6) :=
  (dat1 V c).arrAt_eq_of_cover 4 _ (fun t _ => flushed1_eq V c t) (cover1)

end

end Cert.KernelIdeal.Val

end
-- ==== Proof.KV2.lean ====
/-
  Launch 2 as one function: the 4096-row output projection a·Wfc + bfc, 512 rows per grid point.
  Point t loads rows 512t .. 512t+511 of the left operand, the whole right matrix and the bias row, and stores
  their product plus the bias into the same rows of the output; the eight blocks tile the output's rows, so after
  the launch the output array is that product plus bias everywhere.
-/
import proofs.«128385_j45775761441132_2_alg».proof.Proof.KIDefs
import proofs.«128385_j45775761441132_2_alg».proof.Proof.KVMat

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

/-- At row r and column f: the row of x against the column of w, plus the bias at f. -/
def proj2 (x : S4096x1024.Idx → EReal) (w : S1024x1024.Idx → EReal) (b : S1x1024.Idx → EReal) (r : Fin 4096) (f : Fin 1024) : EReal :=
  (∑ e : Fin 1024, x (ix2 r e) * w (ix2 e f)) + b (ix2 (0 : Fin 1) f)

/-- The whole product-plus-bias array. -/
def G2 (x : S4096x1024.Idx → EReal) (w : S1024x1024.Idx → EReal) (b : S1x1024.Idx → EReal) : S4096x1024.Idx → EReal :=
  fun i => proj2 x w b (i 0) (i 1)

/-- The body's stored value at (p, q): the block's row p against the right matrix's column q, plus the bias at q. -/
theorem pay2_apply (x0 : Vec Ideal S512x1024 .bf16) (x1 : Vec Ideal S1024x1024 .bf16) (x2 : Vec Ideal S1x1024 .f32) (p : Fin 512) (q : Fin 1024) :
    k2_pay1 (F := Ideal) x0 x1 x2 (ix2 p q) = (∑ e : Fin 1024, x0 (ix2 p e) * x1 (ix2 e q)) + x2 (ix2 (0 : Fin 1) q) := by
  unfold k2_pay1
  show (matmul (F := Ideal) dot_S512x1024_S1024x1024_S512x1024_1_0_0_1_n_n none _ _ _) (ix2 p q) + (broadcastTo S512x1024 _ _ : FVec Ideal S512x1024 .f32) (ix2 p q) = _
  rw [mm_fc, broadcastTo_1b_ab_apply]
  simp only [shapeCast_self]

/-- A buffer's contents read as an array of extended reals. -/
abbrev asR2 {S : Shape} (f : S.Idx → EReal) : S.Idx → EReal := f

theorem hz2 : (![0, 0] : Fin 2 → Nat) = fun _ => 0 := funext fun a => by fin_cases a <;> rfl

/-- The index maps over the grid: the left operand's block and the output's block are the same row block, in
    column block 0; the right matrix and the bias are always their one block. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every row block is some point's. -/
theorem idx_onto2 : ∀ (q0 : Fin 8), ∃ t : Fin cfg2.N, win2_3.index t = ![q0.val, 0] :=
  (by decide +kernel : ∀ (q0 : Fin 8), ∃ t : Fin grid2.N, win2_3.index t = ![q0.val, 0])

section
variable (V : (c : Dev nD) → (b : Ref sig .tc) → Buf (Elt Ideal) ((c : Thread nD τ).loc b))

theorem after2_3 (c : Dev nD) (t : Fin cfg2.N) :
    (dat2 V c).after 3 t = out2_3 (iblk2 V c 0 t) (iblk2 V c 1 t) (iblk2 V c 2 t) := by dsimp only [dat2]

/-- What point t writes back is its block of the whole product-plus-bias array of the launch's entry contents. -/
theorem flushed2_eq (c : Dev nD) (t : Fin cfg2.N) :
    (dat2 V c).flushed 3 t = ((cfg2.win 3).blk t).view.read (Elt Ideal) (G2 (V c main_v8) (V c main_v1) (V c main_v9)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  obtain ⟨e0, e1, e2, e3, e4, e5, e6, e7⟩ := idx_facts2 t
  funext j
  obtain ⟨p, q, rfl⟩ : ∃ (p : Fin 512) (q : Fin 1024), j = ix2 p q := ⟨j 0, j 1, eq_ix2 j⟩
  refine (pay2_apply _ _ _ p q).trans ?_
  show (∑ e : Fin 1024, asR2 (S := S4096x1024) (V c main_v8) (((cfg2.win 0).blk t).view.emb (ix2 p e)) * asR2 (S := S1024x1024) (V c main_v1) (((cfg2.win 1).blk t).view.emb (ix2 e q)))
      + asR2 (S := S1x1024) (V c main_v9) (((cfg2.win 2).blk t).view.emb (ix2 (0 : Fin 1) q))
    = proj2 (V c main_v8) (V c main_v1) (V c main_v9) ((((cfg2.win 3).blk t).view.emb (ix2 p q)) 0) ((((cfg2.win 3).blk t).view.emb (ix2 p q)) 1)
  unfold proj2
  have hq : ((((cfg2.win 3).blk t).view.emb (ix2 p q)) 1) = q := Fin.ext (by
    show win2_3.index t (1 : Fin 2) * 1024 + 1 * q.val = q.val; omega)
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 1024 + 1 * q.val = q.val; omega
  rw [hq, h2]
  refine congrArg (· + _) (Finset.sum_congr rfl fun e _ => ?_)
  have h0 : ((cfg2.win 0).blk t).view.emb (ix2 p e) = ix2 ((((cfg2.win 3).blk t).view.emb (ix2 p q)) 0) e := by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * e.val = e.val; omega
  have h1 : ((cfg2.win 1).blk t).view.emb (ix2 e q) = ix2 e q := by
    funext a; apply Fin.ext
    match a with
    | ⟨0, _⟩ => show win2_1.index t (0 : Fin 2) * 1024 + 1 * e.val = e.val; omega
    | ⟨1, _⟩ => show win2_1.index t (1 : Fin 2) * 1024 + 1 * q.val = q.val; omega
  rw [h0, h1]
  rfl

/-- An index of the output array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v10).slice (win2_3.rect t)).set ↔ _
  rw [View.set_slice_whole, Rect.mem_set_unit]
  exact Iff.rfl

/-- Every index of the output array lies in some point's block: the point whose row block holds the row. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- After the launch the output array is the product plus bias of the launch's entry contents. -/
theorem final2 (c : Dev nD) : (dat2 V c).arrAt 3 cfg2.N = G2 (V c main_v8) (V c main_v1) (V c main_v9) :=
  (dat2 V c).arrAt_eq_of_cover 3 _ (fun t _ => flushed2_eq V c t) (cover2)

end

end Cert.KernelIdeal.Val

end
-- ==== Proof.KVBridge.lean ====
/-
  The three launches composed with the host reshapes between them: the program's result array is the
  attention layer of the six arguments, index by index.

  Launch 0 leaves the 4096-row projection x·W + b of the reshaped input; reshaped to [2, 2048, 3072] it is the
  projected array of the layer. Launch 1 leaves the attention of that array under the mask (the mask is widened
  to 32-bit words before the launch and compared with zero inside it, which gives the mask back). Launch 2 leaves
  the 4096-row projection a·Wfc + bfc of the reshaped attention output; reshaped to [2, 2048, 1024] it is the
  layer's result. A reshape between [4096, n] and [2, 2048, n] pairs row 2048·b + s with (b, s); a reshape of
  [n] to [1, n] keeps the entries; rounding to a narrower float type is the identity over the extended reals.
-/
import proofs.«128385_j45775761441132_2_alg».proof.Proof.KIDefs
import proofs.«128385_j45775761441132_2_alg».proof.Proof.KIFold
import proofs.«128385_j45775761441132_2_alg».proof.Proof.KV0
import proofs.«128385_j45775761441132_2_alg».proof.Proof.KV1c
import proofs.«128385_j45775761441132_2_alg».proof.Proof.KV2
import proofs.«128385_j45775761441132_2_alg».proof.Proof.Spec
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

/-! ## The reshapes, read at an index -/

/-- A [2, 2048, n] array reshaped to [4096, n] reads, at row 2048·b + s, the operand at (b, s). -/
theorem cast_bs_row {n : ℕ} {α : Type} (x : (⟨3, ![2, 2048, n]⟩ : Shape).Idx → α)
    (h : (⟨3, ![2, 2048, n]⟩ : Shape).ShapeCasts ⟨2, ![4096, n]⟩) (b : Fin 2) (s : Fin 2048) (f : Fin n) :
    shapeCast ⟨2, ![4096, n]⟩ x h (ix2 (⟨2048 * b.val + s.val, by omega⟩ : Fin 4096) f) = x (ix3 b s f) :=
  shapeCast_apply x h _ _ (by
    rw [Shape.rowMajor_val_three, Shape.rowMajor_val_two]
    show (b.val * 2048 + s.val) * n + f.val = (2048 * b.val + s.val) * n + f.val
    rw [Nat.mul_comm b.val 2048])

/-- A [4096, n] array reshaped to [2, 2048, n] reads, at (b, s), the operand at row 2048·b + s. -/
theorem cast_row_bs {n : ℕ} {α : Type} (x : (⟨2, ![4096, n]⟩ : Shape).Idx → α)
    (h : (⟨2, ![4096, n]⟩ : Shape).ShapeCasts ⟨3, ![2, 2048, n]⟩) (b : Fin 2) (s : Fin 2048) (f : Fin n) :
    shapeCast ⟨3, ![2, 2048, n]⟩ x h (ix3 b s f) = x (ix2 (⟨2048 * b.val + s.val, by omega⟩ : Fin 4096) f) :=
  shapeCast_apply x h _ _ (by
    rw [Shape.rowMajor_val_two, Shape.rowMajor_val_three]
    show (2048 * b.val + s.val) * n + f.val = (b.val * 2048 + s.val) * n + f.val
    rw [Nat.mul_comm b.val 2048])

/-- A one-bit word widened to 32 bits differs from zero exactly when it is one. -/
theorem ne_zero_setWidth (a : BitVec 1) : IntOp.cmpi .ne (a.setWidth 32) 0#32 = a := by
  rcases BitVec.eq_zero_or_eq_one a with h | h <;> subst h <;> decide

/-- The mask widened to words and compared with zero is the mask. -/
theorem mask32_extui (mk : IVec S2x2048x2048 1) : mask32 (extui 32 mk natLt_1_32) = mk :=
  funext fun i => ne_zero_setWidth (mk i)

/-! ## The composition, over arbitrary arguments -/

/-- The program's result as a term of the six arguments: the launches' functions with the host reshapes between. -/
def compose (A0 : FVec Ideal S2x2048x1024 .f32) (A1 : IVec S2x2048x2048 1) (A2 : FVec Ideal S1024x3072 .f32)
    (A3 : FVec Ideal S3072 .f32) (A4 : FVec Ideal S1024x1024 .f32) (A5 : FVec Ideal S1024 .f32) : S2x2048x1024.Idx → EReal :=
  shapeCast S2x2048x1024
    (G2 (shapeCast S4096x1024
          (G1 (shapeCast S2x2048x3072
                (G0 (shapeCast S4096x1024 A0 shapeCasts_S2x2048x1024_S4096x1024) (truncf .bf16 A2 bitsLt_bf16_f32)
                    (shapeCast S1x3072 A3 shapeCasts_S3072_S1x3072))
                shapeCasts_S4096x3072_S2x2048x3072)
              (extui 32 A1 natLt_1_32))
          shapeCasts_S2x2048x1024_S4096x1024)
        (truncf .bf16 A4 bitsLt_bf16_f32) (shapeCast S1x1024 A5 shapeCasts_S1024_S1x1024))
    shapeCasts_S4096x1024_S2x2048x1024

/-- The reshaped output of launch 0 is the layer's projected array. -/
theorem qkv_eq (A0 : FVec Ideal S2x2048x1024 .f32) (A2 : FVec Ideal S1024x3072 .f32) (A3 : FVec Ideal S3072 .f32) :
    (fun b s f => shapeCast S2x2048x3072
        (G0 (shapeCast S4096x1024 A0 shapeCasts_S2x2048x1024_S4096x1024) (truncf .bf16 A2 bitsLt_bf16_f32)
            (shapeCast S1x3072 A3 shapeCasts_S3072_S1x3072))
        shapeCasts_S4096x3072_S2x2048x3072 (ix3 b s f)) = Cert.Attn.qkv A0 A2 A3 := by
  funext b s f
  rw [cast_row_bs]
  show proj0 _ _ _ _ f = _
  unfold proj0 Cert.Attn.qkv
  rw [shapeCast_a_1a_apply]
  refine congrArg (· + _) (Finset.sum_congr rfl fun e _ => ?_)
  rw [cast_bs_row]
  rfl

theorem compose_eq (A0 : FVec Ideal S2x2048x1024 .f32) (A1 : IVec S2x2048x2048 1) (A2 : FVec Ideal S1024x3072 .f32)
    (A3 : FVec Ideal S3072 .f32) (A4 : FVec Ideal S1024x1024 .f32) (A5 : FVec Ideal S1024 .f32) :
    compose A0 A1 A2 A3 A4 A5 = Cert.Attn.G A0 A1 A2 A3 A4 A5 := by
  funext i
  obtain ⟨b, s, f, rfl⟩ : ∃ (b : Fin 2) (s : Fin 2048) (f : Fin 1024), i = ix3 b s f := ⟨i 0, i 1, i 2, eq_ix3 i⟩
  unfold compose
  rw [cast_row_bs]
  show proj2 _ _ _ _ f = Cert.Attn.proj _ A4 A5 b s f
  unfold proj2 Cert.Attn.proj
  rw [shapeCast_a_1a_apply]
  refine congrArg (· + _) (Finset.sum_congr rfl fun e _ => ?_)
  rw [cast_bs_row]
  show Cert.Attn.attn _ (mask32 _) b s e * A4 (ix2 e f) = _
  rw [qkv_eq, mask32_extui]

/-! ## The buffers along the program, read back to the launch memory -/

section Reads
variable (m : (ℓ : Loc nD τ sig) → Buf (Elt Ideal) ℓ) (c : Dev nD)

/-- Launch 0's left operand is the input reshaped to 4096 rows, -/
theorem V1_v2 : Hand.V1 m c main_v2 = shapeCast S4096x1024 (m ((c : Thread nD τ).loc main_arg0)) shapeCasts_S2x2048x1024_S4096x1024 := by
  show StableHlo.after hostOps0 _ (Proc.devRef .tc main_v2) = _
  after_results; rfl
/-- its right matrix the projection weights, rounded, -/
theorem V1_v0 : (Hand.V1 m c main_v0 : FVec Ideal S1024x3072 .bf16) = truncf (F := Ideal) .bf16 (m ((c : Thread nD τ).loc main_arg2) : FVec Ideal S1024x3072 .f32) bitsLt_bf16_f32 := by
  show StableHlo.after hostOps0 _ (Proc.devRef .tc main_v0) = _
  after_results; all_goals rfl
/-- and its bias row the projection bias. -/
theorem V1_v3 : Hand.V1 m c main_v3 = shapeCast S1x3072 (m ((c : Thread nD τ).loc main_arg3)) shapeCasts_S3072_S1x3072 := by
  show StableHlo.after hostOps0 _ (Proc.devRef .tc main_v3) = _
  after_results; rfl

/-- Launch 1's shared input is launch 0's output reshaped to [2, 2048, 3072], -/
theorem V3_v5 : Hand.V3 m c main_v5 = shapeCast S2x2048x3072 (G0 (Hand.V1 m c main_v2) (Hand.V1 m c main_v0) (Hand.V1 m c main_v3)) shapeCasts_S4096x3072_S2x2048x3072 := by
  show StableHlo.after hostOps1 _ (Proc.devRef .tc main_v5) = _
  after_results
  exact congrArg (fun X => shapeCast S2x2048x3072 X shapeCasts_S4096x3072_S2x2048x3072) ((W2_arr m c 3).trans (final0 (Hand.V1 m) c))
/-- and its mask words the mask, widened: no launch and no earlier host operation writes the mask. -/
theorem V3_v6 : Hand.V3 m c main_v6 = extui 32 (m ((c : Thread nD τ).loc main_arg1)) natLt_1_32 := by
  show StableHlo.after hostOps1 _ (Proc.devRef .tc main_v6) = _
  after_results
  exact congrArg (fun X => extui 32 X natLt_1_32)
    ((W2_of_ne m c main_arg1 (by decide)).trans ((StableHlo.after_of_writes_sub hostOps0 _ hostOps0_writes (by decide)).trans rfl))

/-- Launch 2's left operand is launch 1's output reshaped to 4096 rows, -/
theorem V5_v8 : Hand.V5 m c main_v8 = shapeCast S4096x1024 (G1 (Hand.V3 m c main_v5) (Hand.V3 m c main_v6)) shapeCasts_S2x2048x1024_S4096x1024 := by
  show StableHlo.after hostOps2 _ (Proc.devRef .tc main_v8) = _
  after_results
  exact congrArg (fun X => shapeCast S4096x1024 X shapeCasts_S2x2048x1024_S4096x1024) ((W4_v7 m c).trans (final1 (Hand.V3 m) c))
/-- its right matrix the output weights, rounded (written before launch 0 and untouched since), -/
theorem V5_v1 : (Hand.V5 m c main_v1 : FVec Ideal S1024x1024 .bf16) = truncf (F := Ideal) .bf16 (m ((c : Thread nD τ).loc main_arg4) : FVec Ideal S1024x1024 .f32) bitsLt_bf16_f32 :=
  (StableHlo.after_of_writes_sub hostOps2 _ hostOps2_writes (by decide)).trans <|
  (W4_of_ne m c main_v1 (by decide)).trans <|
  (StableHlo.after_of_writes_sub hostOps1 _ hostOps1_writes (by decide)).trans <|
  (W2_of_ne m c main_v1 (by decide)).trans <| by
    show StableHlo.after hostOps0 _ (Proc.devRef .tc main_v1) = _
    after_results; all_goals rfl
/-- and its bias row the output bias. -/
theorem V5_v9 : Hand.V5 m c main_v9 = shapeCast S1x1024 (m ((c : Thread nD τ).loc main_arg5)) shapeCasts_S1024_S1x1024 := by
  show StableHlo.after hostOps2 _ (Proc.devRef .tc main_v9) = _
  after_results
  exact congrArg (fun X => shapeCast S1x1024 X shapeCasts_S1024_S1x1024)
    ((W4_of_ne m c main_arg5 (by decide)).trans <|
     (StableHlo.after_of_writes_sub hostOps1 _ hostOps1_writes (by decide)).trans <|
     (W2_of_ne m c main_arg5 (by decide)).trans <|
     (StableHlo.after_of_writes_sub hostOps0 _ hostOps0_writes (by decide)).trans rfl)

/-- The result array is launch 2's output reshaped to [2, 2048, 1024]. -/
theorem W7_v11 : W7 m c (Proc.devRef .tc main_v11) = shapeCast S2x2048x1024 (G2 (Hand.V5 m c main_v8) (Hand.V5 m c main_v1) (Hand.V5 m c main_v9)) shapeCasts_S4096x1024_S2x2048x1024 := by
  show StableHlo.after hostOps3 _ (Proc.devRef .tc main_v11) = _
  after_results
  exact congrArg (fun X => shapeCast S2x2048x1024 X shapeCasts_S4096x1024_S2x2048x1024) ((W6_arr m c 3).trans (final2 (Hand.V5 m) c))

end Reads

/-! ## The program's result -/

/-- The program's result array is the attention layer of the six arguments. -/
theorem kernel_value (m : (ℓ : Loc nD τ sig) → Buf (Elt Ideal) ℓ) (c : Dev nD) :
    W7 (F := Ideal) m c (Proc.devRef .tc main_v11) = Cert.Attn.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := by
  rw [W7_v11, V5_v8, V5_v1, V5_v9, V3_v5, V3_v6, V1_v2, V1_v0, V1_v3]
  exact compose_eq _ _ _ _ _ _

/-- info: 'Cert.KernelIdeal.Val.kernel_value' depends on axioms: [propext, Classical.choice, Quot.sound] -/
#guard_msgs in #print axioms kernel_value

end Cert.KernelIdeal.Val

end
-- ==== Proof.RefSpec.lean ====
/-
  The reference program's result, read one operation at a time, is the layer of Spec.lean: each stage of the
  program is identified, at literal coordinates, with the corresponding function of the specification
  (projection, per-head slices, masked scaled scores, row softmax, attention sum, output projection).
-/
import proofs.«128385_j45775761441132_2_alg».proof.Proof.Spec
import proofs.«128385_j45775761441132_2_alg».proof.Proof.Gen.ReferenceIdeal.Read

noncomputable section

namespace Cert.Attn.Ref

open Cert.ReferenceIdeal Cert.ReferenceIdeal.Gen Cert.ReferenceIdeal.Read Idealize.ShloMosaic Idealize.ShloMosaic.ValueIdx

/-! ## The projection -/

/-- The first matmul plus its broadcast bias is the specification's projection. -/
theorem v3_eq (x0 : (⟨S2x2048x1024, .f32⟩ : BufTy).Contents (Elt Ideal)) (x2 : (⟨S1024x3072, .f32⟩ : BufTy).Contents (Elt Ideal))
    (x3 : (⟨S3072, .f32⟩ : BufTy).Contents (Elt Ideal)) (b : Fin 2) (s : Fin 2048) (f : Fin 3072) :
    val_main_v3 (F := Ideal) x0 x2 x3 (ix3 b s f) = Cert.Attn.qkv x0 x2 x3 b s f := by
  rw [val_main_v3_apply, val_main_v0_apply, val_main_v2_apply, val_main_v1_apply]
  unfold Cert.Attn.qkv
  rw [Ideal.addf_def]
  have e1 : ∀ k : Fin 1024, lidx_main_v0 (ix3 b s f) k = ix3 b s k := fun k => funext fun a => by
    match a with | ⟨0, _⟩ => rfl | ⟨1, _⟩ => rfl | ⟨2, _⟩ => rfl
  have e2 : ∀ k : Fin 1024, ridx_main_v0 (ix3 b s f) k = ix2 k f := fun k => funext fun a => by
    match a with | ⟨0, _⟩ => rfl | ⟨1, _⟩ => rfl
  have e3 : idx_main_v1 (idx_main_v2 (ix3 b s f)) = ix1 f := funext fun a => by
    match a with | ⟨0, _⟩ => rfl
  simp only [e1, e2, e3]

/-! ## The per-head slices: pure index arithmetic -/

/-- Reading head h's query coordinate d at position s goes back to column 64h+d of the projected array. -/
theorem idx_q (b : Fin 2) (h : Fin 16) (s : Fin 2048) (d : Fin 64) :
    idx_main_v4 (idx_main_v7 (idx_main_v8 (ix4 b h s d))) = ix3 b s (qcol h d) := by
  have hb := b.isLt; have hh := h.isLt; have hs := s.isLt; have hd := d.isLt
  funext a
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show (((b.val * 2048 + s.val) * 16 + h.val) * 64 + d.val) % 1024 = 64 * h.val + d.val; omega)

/-- The key coordinate goes back to column 1024+64h+d. -/
theorem idx_k (b : Fin 2) (h : Fin 16) (s : Fin 2048) (d : Fin 64) :
    idx_main_v5 (idx_main_v9 (idx_main_v10 (ix4 b h s d))) = ix3 b s (kcol h d) := by
  have hb := b.isLt; have hh := h.isLt; have hs := s.isLt; have hd := d.isLt
  funext a
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show 1024 + (((b.val * 2048 + s.val) * 16 + h.val) * 64 + d.val) % 1024 = 1024 + 64 * h.val + d.val; omega)

/-- Column 64h+d of the model width. -/
def ecol (h : Fin 16) (d : Fin 64) : Fin 1024 := ⟨64 * h.val + d.val, by omega⟩

/-- The value coordinate goes back to column 2048+64h+d. -/
theorem idx_v (b : Fin 2) (h : Fin 16) (s : Fin 2048) (d : Fin 64) :
    idx_main_v6 (idx_main_v11 (idx_main_v12 (ix4 b h s d))) = ix3 b s (vcol (ecol h d)) := by
  have hb := b.isLt; have hh := h.isLt; have hs := s.isLt; have hd := d.isLt
  funext a
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show 2048 + (((b.val * 2048 + s.val) * 16 + h.val) * 64 + d.val) % 1024 = 2048 + (64 * h.val + d.val); omega)

theorem v8_eq (x0 : (⟨S2x2048x1024, .f32⟩ : BufTy).Contents (Elt Ideal)) (x2 : (⟨S1024x3072, .f32⟩ : BufTy).Contents (Elt Ideal)) (x3 : (⟨S3072, .f32⟩ : BufTy).Contents (Elt Ideal)) (b : Fin 2) (h : Fin 16) (s : Fin 2048) (d : Fin 64) :
    val_main_v8 (F := Ideal) x0 x2 x3 (ix4 b h s d) = Cert.Attn.qkv x0 x2 x3 b s (qcol h d) := by
  rw [val_main_v8_apply, val_main_v7_apply, val_main_v4_apply, idx_q, v3_eq]

theorem v10_eq (x0 : (⟨S2x2048x1024, .f32⟩ : BufTy).Contents (Elt Ideal)) (x2 : (⟨S1024x3072, .f32⟩ : BufTy).Contents (Elt Ideal)) (x3 : (⟨S3072, .f32⟩ : BufTy).Contents (Elt Ideal)) (b : Fin 2) (h : Fin 16) (s : Fin 2048) (d : Fin 64) :
    val_main_v10 (F := Ideal) x0 x2 x3 (ix4 b h s d) = Cert.Attn.qkv x0 x2 x3 b s (kcol h d) := by
  rw [val_main_v10_apply, val_main_v9_apply, val_main_v5_apply, idx_k, v3_eq]

theorem v12_eq (x0 : (⟨S2x2048x1024, .f32⟩ : BufTy).Contents (Elt Ideal)) (x2 : (⟨S1024x3072, .f32⟩ : BufTy).Contents (Elt Ideal)) (x3 : (⟨S3072, .f32⟩ : BufTy).Contents (Elt Ideal)) (b : Fin 2) (h : Fin 16) (s : Fin 2048) (d : Fin 64) :
    val_main_v12 (F := Ideal) x0 x2 x3 (ix4 b h s d) = Cert.Attn.qkv x0 x2 x3 b s (vcol (ecol h d)) := by
  rw [val_main_v12_apply, val_main_v11_apply, val_main_v6_apply, idx_v, v3_eq]

/-! ## The constants: the divisor is the square root of 64, the specification's scale is 1/8 -/

theorem ofBits_64 : Ideal.ofBits .f32 0x42800000#32 = ((64 : ℝ) : EReal) := by
  simp [Ideal.ofBits, Ideal.ieee, -EReal.coe_mul]; norm_num

theorem scale_eq : Cert.Attn.scale = (((1 / 8 : ℝ) : ℝ) : EReal) := by
  unfold Cert.Attn.scale
  simp [Ideal.ofBits, Ideal.ieee, -EReal.coe_mul]; norm_num

theorem sqrt_64 : Ideal.sqrt (Ideal.ofBits .f32 0x42800000#32) = ((8 : ℝ) : EReal) := by
  rw [ofBits_64, Ideal.sqrt_coe, if_neg (by norm_num)]
  rw [show (64 : ℝ) = 8 ^ 2 by norm_num, Real.sqrt_sq (by norm_num)]

/-- Dividing by the square root of 64 is multiplying by the word of 1/8. -/
theorem div_sqrt_64 (x : EReal) : Ideal.div x (Ideal.sqrt (Ideal.ofBits .f32 0x42800000#32)) = x * Cert.Attn.scale := by
  rw [sqrt_64, Ideal.div_coe (by norm_num), scale_eq]

/-! ## The masked, scaled scores -/

theorem v18_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (b : Fin 2) (h : Fin 16) (q k : Fin 2048) :
    val_main_v18 (F := Ideal) x0 x1 x2 x3 (ix4 b h q k) = Cert.Attn.score (Cert.Attn.qkv x0 x2 x3) x1 b h q k := by
  rw [val_main_v18_apply, val_main_call0_v0_apply, val_main_v17_apply, val_main_call0_v1_apply, val_main_cst_0_apply,
    val_main_v16_apply, val_main_v15_apply, val_main_v14_apply, val_main_cst_apply, val_main_v13_apply]
  unfold Cert.Attn.score Cert.Attn.fill
  have e1 : idx_main_v17 (idx_main_call0_v0 (ix4 b h q k)) = ix3 b q k := funext fun a => by
    match a with | ⟨0, _⟩ => rfl | ⟨1, _⟩ => rfl | ⟨2, _⟩ => rfl
  have e2 : ∀ d : Fin 64, lidx_main_v13 (ix4 b h q k) d = ix4 b h q d := fun d => funext fun a => by
    match a with | ⟨0, _⟩ => rfl | ⟨1, _⟩ => rfl | ⟨2, _⟩ => rfl | ⟨3, _⟩ => rfl
  have e3 : ∀ d : Fin 64, ridx_main_v13 (ix4 b h q k) d = ix4 b h k d := fun d => funext fun a => by
    match a with | ⟨0, _⟩ => rfl | ⟨1, _⟩ => rfl | ⟨2, _⟩ => rfl | ⟨3, _⟩ => rfl
  simp only [e1, e2, e3, v8_eq, v10_eq, Ideal.hostDivf_def, Ideal.hostUnary_sqrt_def, Ideal.ofBits_def, div_sqrt_64]

/-! ## The row softmax -/

/-- The word of minus infinity is the bottom element. -/
theorem ofBits_negInf : Ideal.ofBits .f32 0xFF800000#32 = (⊥ : EReal) := by
  simp [Ideal.ofBits, Ideal.ieee]

/-- The reduced index (b, h, q) with the key position k put back is (b, h, q, k). -/
theorem lift_bhq (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  fin_cases c <;> rfl

/-- The reduce with a maximum body over the key axis is the row's maximum from minus infinity. -/
theorem v19_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (b : Fin 2) (h : Fin 16) (q : Fin 2048) :
    val_main_v19 (F := Ideal) x0 x1 x2 x3 (ix3 b h q) = Cert.Attn.rowmax (fun k => Cert.Attn.score (Cert.Attn.qkv x0 x2 x3) x1 b h q k) := by
  have hr : S2x16x2048x2048.Reduces [3] S2x16x2048 := by decide
  unfold val_main_v19
  rw [Host.reduce_eq_fold_single FloatOps.maximumf _ _ reducesTo_S2x16x2048x2048_S2x16x2048_d3 hr h_S_]
  have hf : (val_main_v18 (F := Ideal) x0 x1 x2 x3 ∘ hr.lift (ix3 b h q)) = fun k : Fin 2048 => Cert.Attn.score (Cert.Attn.qkv x0 x2 x3) x1 b h q k :=
    funext fun k => by rw [Function.comp_apply, lift_bhq, v18_eq]; rfl
  unfold Cert.Attn.rowmax Cert.Attn.negInf
  exact congrArg (fun f => Finset.fold max (Ideal.ofBits .f32 0xFF800000#32) f (Finset.univ : Finset (Fin 2048))) hf

/-- Taking the maximum with minus infinity once more changes nothing. -/
theorem v21_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (b : Fin 2) (h : Fin 16) (q : Fin 2048) :
    val_main_v21 (F := Ideal) x0 x1 x2 x3 (ix3 b h q) = Cert.Attn.rowmax (fun k => Cert.Attn.score (Cert.Attn.qkv x0 x2 x3) x1 b h q k) := by
  rw [val_main_v21_apply, val_main_v20_apply, val_main_cst_2_apply, v19_eq, Ideal.maximumf_def, Ideal.ofBits_def,
    ofBits_negInf]
  exact max_bot_left _

theorem v25_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (b : Fin 2) (h : Fin 16) (q k : Fin 2048) :
    val_main_v25 (F := Ideal) x0 x1 x2 x3 (ix4 b h q k)
      = Ideal.exp (Cert.Attn.score (Cert.Attn.qkv x0 x2 x3) x1 b h q k - Cert.Attn.rowmax (fun k' => Cert.Attn.score (Cert.Attn.qkv x0 x2 x3) x1 b h q k')) := by
  have e : idx_main_v22 (idx_main_v23 (ix4 b h q k)) = ix3 b h q := funext fun a => by
    match a with | ⟨0, _⟩ => rfl | ⟨1, _⟩ => rfl | ⟨2, _⟩ => rfl
  rw [val_main_v25_apply, val_main_v24_apply, val_main_v23_apply, val_main_v22_apply, e, v18_eq, v21_eq,
    Ideal.hostUnary_exp_def, Ideal.subf_def]

theorem v29_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (b : Fin 2) (h : Fin 16) (q k : Fin 2048) :
    val_main_v29 (F := Ideal) x0 x1 x2 x3 (ix4 b h q k) = Cert.Attn.soft (fun k' => Cert.Attn.score (Cert.Attn.qkv x0 x2 x3) x1 b h q k') k := by
  have e : idx_main_v27 (idx_main_v28 (ix4 b h q k)) = ix3 b h q := funext fun a => by
    match a with | ⟨0, _⟩ => rfl | ⟨1, _⟩ => rfl | ⟨2, _⟩ => rfl
  have e2 : ∀ k' : Fin 2048, idx_main_v26 (ix3 b h q) k' = ix4 b h q k' := fun k' => funext fun a => by
    match a with | ⟨0, _⟩ => rfl | ⟨1, _⟩ => rfl | ⟨2, _⟩ => rfl | ⟨3, _⟩ => rfl
  rw [val_main_v29_apply, val_main_v28_apply, val_main_v27_apply, e, val_main_v26_apply, val_main_cst_3_apply]
  unfold Cert.Attn.soft
  simp only [e2, v25_eq, Ideal.hostDivf_def, Ideal.ofBits_def, Ideal.ofBits_zero_f32, zero_add]

/-! ## The attention sum, back in (batch, position, column) layout -/

/-- Output column e is coordinate e mod 64 of head e / 64. -/
theorem idx_e (b : Fin 2) (s : Fin 2048) (e : Fin 1024) :
    idx_main_v31 (idx_main_v32 (ix3 b s e)) = ix4 b (headOf e) s (⟨e.val % 64, Nat.mod_lt _ (by norm_num)⟩ : Fin 64) := by
  have hb := b.isLt; have hs := s.isLt; have he := e.isLt
  funext a
  match a with
  | ⟨0, _⟩ => exact Fin.ext (by show ((b.val * 2048 + s.val) * 1024 + e.val) / 2097152 = b.val; omega)
  | ⟨1, _⟩ => exact Fin.ext (by show ((b.val * 2048 + s.val) * 1024 + e.val) / 64 % 16 = e.val / 64; omega)
  | ⟨2, _⟩ => exact Fin.ext (by show ((b.val * 2048 + s.val) * 1024 + e.val) / 1024 % 2048 = s.val; omega)
  | ⟨3, _⟩ => exact Fin.ext (by show ((b.val * 2048 + s.val) * 1024 + e.val) % 64 = e.val % 64; omega)

/-- 64 (e / 64) + e mod 64 = e. -/
theorem ecol_headOf (e : Fin 1024) : ecol (headOf e) (⟨e.val % 64, Nat.mod_lt _ (by norm_num)⟩ : Fin 64) = e :=
  Fin.ext (by show 64 * (e.val / 64) + e.val % 64 = e.val; omega)

theorem v32_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (b : Fin 2) (s : Fin 2048) (e : Fin 1024) :
    val_main_v32 (F := Ideal) x0 x1 x2 x3 (ix3 b s e) = Cert.Attn.attn (Cert.Attn.qkv x0 x2 x3) x1 b s e := by
  rw [val_main_v32_apply, val_main_v31_apply, idx_e, val_main_v30_apply]
  unfold Cert.Attn.attn
  have e1 : ∀ (d : Fin 64) (k : Fin 2048), lidx_main_v30 (ix4 b (headOf e) s d) k = ix4 b (headOf e) s k :=
    fun d k => funext fun a => by
      match a with | ⟨0, _⟩ => rfl | ⟨1, _⟩ => rfl | ⟨2, _⟩ => rfl | ⟨3, _⟩ => rfl
  have e2 : ∀ (d : Fin 64) (k : Fin 2048), ridx_main_v30 (ix4 b (headOf e) s d) k = ix4 b (headOf e) k d :=
    fun d k => funext fun a => by
      match a with | ⟨0, _⟩ => rfl | ⟨1, _⟩ => rfl | ⟨2, _⟩ => rfl | ⟨3, _⟩ => rfl
  simp only [e1, e2, v29_eq, v12_eq, ecol_headOf]

/-! ## The output projection, and the whole layer -/

theorem v36_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (x4 : (⟨S1024x1024, .f32⟩ : BufTy).Contents (Elt Ideal)) (x5 : (⟨S1024, .f32⟩ : BufTy).Contents (Elt Ideal)) (b : Fin 2) (s : Fin 2048) (f : Fin 1024) :
    val_main_v36 (F := Ideal) x0 x1 x2 x3 x4 x5 (ix3 b s f)
      = Cert.Attn.proj (Cert.Attn.attn (Cert.Attn.qkv x0 x2 x3) x1) x4 x5 b s f := by
  rw [val_main_v36_apply, val_main_v33_apply, val_main_v35_apply, val_main_v34_apply]
  unfold Cert.Attn.proj
  have e1 : ∀ k : Fin 1024, lidx_main_v33 (ix3 b s f) k = ix3 b s k := fun k => funext fun a => by
    match a with | ⟨0, _⟩ => rfl | ⟨1, _⟩ => rfl | ⟨2, _⟩ => rfl
  have e2 : ∀ k : Fin 1024, ridx_main_v33 (ix3 b s f) k = ix2 k f := fun k => funext fun a => by
    match a with | ⟨0, _⟩ => rfl | ⟨1, _⟩ => rfl
  have e3 : idx_main_v34 (idx_main_v35 (ix3 b s f)) = ix1 f := funext fun a => by
    match a with | ⟨0, _⟩ => rfl
  simp only [e1, e2, e3, v32_eq, Ideal.addf_def]

/-- The reference's result, as a function of its six arguments, is the specification's layer. -/
theorem val_eq (x0 : (⟨S2x2048x1024, .f32⟩ : BufTy).Contents (Elt Ideal)) (x1 : (⟨S2x2048x2048, .i1⟩ : BufTy).Contents (Elt Ideal)) (x2 : (⟨S1024x3072, .f32⟩ : BufTy).Contents (Elt Ideal)) (x3 : (⟨S3072, .f32⟩ : BufTy).Contents (Elt Ideal)) (x4 : (⟨S1024x1024, .f32⟩ : BufTy).Contents (Elt Ideal)) (x5 : (⟨S1024, .f32⟩ : BufTy).Contents (Elt Ideal)) :
    Cert.ReferenceIdeal.Read.val_main_v36 (F := Ideal) x0 x1 x2 x3 x4 x5 = Cert.Attn.G x0 x1 x2 x3 x4 x5 := by
  funext i
  obtain ⟨b, s, f, rfl⟩ : ∃ (b : Fin 2) (s : Fin 2048) (f : Fin 1024), i = ix3 b s f := ⟨i 0, i 1, i 2, eq_ix3 i⟩
  rw [v36_eq]
  rfl

/-- The same for the result term of the program's run, read from the memory the run starts in. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v36 (F := Ideal) m c
      = Cert.Attn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v36_eq, val_eq]

end Cert.Attn.Ref

end
-- ==== Proof.lean ====
/-
  Multi-head self-attention as three kernel launches against the plain array program: both compute, on the
  extended reals, the one function `Cert.Attn.G` of the six arguments (Proof/Spec.lean).

  The kernel program projects the activations to q, k, v in one launch (row blocks of a matrix product plus bias),
  computes attention per (batch, pair of heads, query tile) in a second launch — scaled scores with masked
  positions set to a fill value, a row softmax, the product with the values — and projects the result in a third
  launch; reshapes between the launches only regroup rows. The reference computes the same sums over whole arrays
  with heads as an array axis. Rounding to sixteen bits is the identity on the extended reals, a product into a
  zero accumulator is the plain sum, and the kernel's factor 1/8 is the reference's division by the square root of
  64, so the two results agree index by index. The run of the kernel program (every execution ends, nothing faults,
  the arguments are unchanged, the result buffer holds the fold of the three launches' write-backs) is proved once
  for any float instance and used at both instances; the reference's run is its generated read-back.
-/
import proofs.«128385_j45775761441132_2_alg».proof.Defs
import proofs.«128385_j45775761441132_2_alg».proof.Proof.Gen.Kernel
import proofs.«128385_j45775761441132_2_alg».proof.Proof.Gen.KernelIdeal
import proofs.«128385_j45775761441132_2_alg».proof.Proof.Gen.ReferenceIdeal
import proofs.«128385_j45775761441132_2_alg».proof.Proof.Gen.ReferenceIdeal.Run
import proofs.«128385_j45775761441132_2_alg».proof.Proof.Gen.ReferenceIdeal.Read
import proofs.«128385_j45775761441132_2_alg».proof.Proof.Gen.Pre_finite_inputs
import proofs.«128385_j45775761441132_2_alg».proof.Proof.KRun
import proofs.«128385_j45775761441132_2_alg».proof.Proof.KIRun
import proofs.«128385_j45775761441132_2_alg».proof.Proof.KVBridge
import proofs.«128385_j45775761441132_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ =>
  (θ_run Cert.Kernel.defs _ _).mono (fun _ h c => (h c).2) (Cert.Kernel.Hand.run_main (F := Bits) m ρ)

/-- The idealized kernel program runs and leaves its arguments unchanged. -/
theorem frame_ki : Cert.frame_KernelIdeal := fun m ρ _ =>
  (θ_run Cert.KernelIdeal.defs _ _).mono (fun _ h c => (h c).2) (Cert.KernelIdeal.Hand.run_main (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the attention layer `G` of the arguments in their result. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.Attn.Ref.res_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
